-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x256x64x64 .f32) (main_arg1 : FVec F S16x256 .f32) (main_arg2 : FVec F S16 .f32) (main_arg3 : FVec F S256x16 .f32) (main_arg4 : FVec F S256 .f32) (main_arg5 : FVec F S256 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_v13 main_v16
-- ==== Kernel.lean ====
abbrev S16x256x64x64 : Shape := ⟨4, ![16, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S16x64x64x256 : Shape := ⟨4, ![16, 64, 64, 256]⟩
abbrev S16x4096x256 : Shape := ⟨3, ![16, 4096, 256]⟩
abbrev S2x4096x256 : Shape := ⟨3, ![2, 4096, 256]⟩
abbrev S2x256 : Shape := ⟨2, ![2, 256]⟩
abbrev S2x16 : Shape := ⟨2, ![2, 16]⟩
abbrev S1x16 : Shape := ⟨2, ![1, 16]⟩
abbrev S1x256 : Shape := ⟨2, ![1, 256]⟩
abbrev S8192x256 : Shape := ⟨2, ![8192, 256]⟩
abbrev S8192x1 : Shape := ⟨2, ![8192, 1]⟩
abbrev S2x1x256 : Shape := ⟨3, ![2, 1, 256]⟩
abbrev S2x4096x1 : Shape := ⟨3, ![2, 4096, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x256x64x64, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S256, .f32⟩
  | .hbm, ⟨6, _⟩ => ⟨S16x64x64x256, .f32⟩
  | .hbm, ⟨7, _⟩ => ⟨S16x4096x256, .f32⟩
  | .hbm, ⟨8, _⟩ => ⟨S16x256, .f32⟩
  | .hbm, ⟨9, _⟩ => ⟨S16x4096x256, .f32⟩
  | .hbm, ⟨10, _⟩ => ⟨S16x64x64x256, .f32⟩
  | .hbm, ⟨11, _⟩ => ⟨S16x256x64x64, .f32⟩
  | .local _ .vmem, ⟨0, _⟩ => ⟨S2x4096x256, .f32⟩
  | .local _ .vmem, ⟨1, _⟩ => ⟨S2x4096x256, .f32⟩
  | .local _ .vmem, ⟨2, _⟩ => ⟨S16x256, .f32⟩
  | .local _ .vmem, ⟨3, _⟩ => ⟨S16x256, .f32⟩
  | .local _ .vmem, ⟨4, _⟩ => ⟨S16, .f32⟩
  | .local _ .vmem, ⟨5, _⟩ => ⟨S256, .f32⟩
  | .local _ .vmem, ⟨6, _⟩ => ⟨S256, .f32⟩
  | .local _ .vmem, ⟨7, _⟩ => ⟨S2x4096x256, .f32⟩
  | .local _ .vmem, ⟨8, _⟩ => ⟨S2x4096x256, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S16x256x64x64_S16x64x64x256_0_2_3_1 : S16x256x64x64.Transposes [0, 2, 3, 1] S16x64x64x256
  shapeCasts_S16x64x64x256_S16x4096x256 : S16x64x64x256.ShapeCasts S16x4096x256
  transposes_S256x16_S16x256_1_0 : S256x16.Transposes [1, 0] S16x256
  inb_S2x4096x256_S2x4096x256_0_0_0 : ∀ a, (![0, 0, 0] : Fin 3 → Nat) a + S2x4096x256.size a ≤ S2x4096x256.size a
  h_S2x4096x256 : 0 < S2x4096x256.numel
  shapeCasts_S2x4096x256_S2x4096x256 : S2x4096x256.ShapeCasts S2x4096x256
  reduces_S2x4096x256_S2x256 : S2x4096x256.Reduces [1] S2x256
  inb_S16x256_S16x256_0_0 : ∀ a, (![0, 0] : Fin 2 → Nat) a + S16x256.size a ≤ S16x256.size a
  h_S16x256 : 0 < S16x256.numel
  inb_S16_S16_0 : ∀ a, (![0] : Fin 1 → Nat) a + S16.size a ≤ S16.size a
  h_S16 : 0 < S16.numel
  shapeCasts_S16_S1x16 : S16.ShapeCasts S1x16
  broadcasts_S1x16_S2x16 : S1x16.Broadcasts S2x16
  shapeCasts_S16x256_S16x256 : S16x256.ShapeCasts S16x256
  inb_S256_S256_0 : ∀ a, (![0] : Fin 1 → Nat) a + S256.size a ≤ S256.size a
  h_S256 : 0 < S256.numel
  shapeCasts_S256_S1x256 : S256.ShapeCasts S1x256
  broadcasts_S1x256_S2x256 : S1x256.Broadcasts S2x256
  shapeCasts_S2x4096x256_S8192x256 : S2x4096x256.ShapeCasts S8192x256
  shapeCasts_S2x256_S2x1x256 : S2x256.ShapeCasts S2x1x256
  shapeCasts_S8192x1_S2x4096x1 : S8192x1.ShapeCasts S2x4096x1
  broadcasts_S2x1x256_S2x4096x256 : S2x1x256.Broadcasts S2x4096x256
  broadcasts_S2x4096x1_S2x4096x256 : S2x4096x1.Broadcasts S2x4096x256
  shapeCasts_S16x4096x256_S16x64x64x256 : S16x4096x256.ShapeCasts S16x64x64x256
  transposes_S16x64x64x256_S16x256x64x64_0_3_1_2 : S16x64x64x256.Transposes [0, 3, 1, 2] S16x256x64x64
  dot_S2x256_S16x256_S2x16_1_1_0_0_n_n_wf : DotDims.WF S2x256 S16x256 S2x16 [1] [1] [0] [0] [] []
  dot_S2x16_S16x256_S2x256_1_0_0_1_n_n_wf : DotDims.WF S2x16 S16x256 S2x256 [1] [0] [0] [1] [] []
  dot_S8192x256_S1x256_S8192x1_1_1_0_0_n_n_wf : DotDims.WF S8192x256 S1x256 S8192x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S16x4096x256.size a
  hwx0_0 : ∀ i : grid0.Coords, EltTy.bits .f32 = 32 ∨ (Rect.block (s := S16x4096x256) S2x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x4096x256.size a ≤ S16x4096x256.size a
  hwx0_6 : ∀ i : grid0.Coords, EltTy.bits .f32 = 32 ∨ (Rect.block (s := S16x4096x256) S2x4096x256.size (cc0_transform_6 i) (hinb0_6 i)).WholeWords (EltTy.packing .f32)

variable [Facts₀]

def dot_S2x256_S16x256_S2x16_1_1_0_0_n_n : DotDims S2x256 S16x256 S2x16 where
  lhsContracting := [1]
  rhsContracting := [1]
  lhsNonContracting := [0]
  rhsNonContracting := [0]
  lhsBatch := []
  rhsBatch := []
  wf := dot_S2x256_S16x256_S2x16_1_1_0_0_n_n_wf
def dot_S2x16_S16x256_S2x256_1_0_0_1_n_n : DotDims S2x16 S16x256 S2x256 where
  lhsContracting := [1]
  rhsContracting := [0]
  lhsNonContracting := [0]
  rhsNonContracting := [1]
  lhsBatch := []
  rhsBatch := []
  wf := dot_S2x16_S16x256_S2x256_1_0_0_1_n_n_wf
def dot_S8192x256_S1x256_S8192x1_1_1_0_0_n_n : DotDims S8192x256 S1x256 S8192x1 where
  lhsContracting := [1]
  rhsContracting := [1]
  lhsNonContracting := [0]
  rhsNonContracting := [0]
  lhsBatch := []
  rhsBatch := []
  wf := dot_S8192x256_S1x256_S8192x1_1_1_0_0_n_n_wf

abbrev win0_0 : Pipeline.Window sig grid0 :=
  Pipeline.Window.ofSpec (Memref.whole main_v1) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2x4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S16x256x4096 : Shape := ⟨3, ![16, 256, 4096]⟩
abbrev S_ : Shape := ⟨0, ![]⟩
abbrev S1 : Shape := ⟨1, ![1]⟩
abbrev S256x1 : Shape := ⟨2, ![256, 1]⟩
abbrev S256x2 : Shape := ⟨2, ![256, 2]⟩
abbrev S1x256 : Shape := ⟨2, ![1, 256]⟩
abbrev S1x256x4096 : Shape := ⟨3, ![1, 256, 4096]⟩
abbrev S256x4096 : Shape := ⟨2, ![256, 4096]⟩
abbrev S16x1 : Shape := ⟨2, ![16, 1]⟩
abbrev S1x4096 : Shape := ⟨2, ![1, 4096]⟩

abbrev nBuf : Space → Nat
  | .hbm => 18
  | .vmem => 8
  | .smem => 0
  | _ => 0

abbrev bufTy : (tb : Table) → Fin (tcTables nBuf tb) → BufTy
  | .hbm, ⟨0, _⟩ => ⟨S16x256x64x64, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S256, .f32⟩
  | .hbm, ⟨6, _⟩ => ⟨S16x256x4096, .f32⟩
  | .hbm, ⟨7, _⟩ => ⟨S_, .f32⟩
  | .hbm, ⟨8, _⟩ => ⟨S256, .f32⟩
  | .hbm, ⟨9, _⟩ => ⟨S_, .i32⟩
  | .hbm, ⟨10, _⟩ => ⟨S1, .i32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x2, .f32⟩
  | .hbm, ⟨15, _⟩ => ⟨S1x256, .f32⟩
  | .hbm, ⟨16, _⟩ => ⟨S16x256x4096, .f32⟩
  | .hbm, ⟨17, _⟩ => ⟨S16x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S16x256, .f32⟩
  | .local _ .vmem, ⟨3, _⟩ => ⟨S256x16, .f32⟩
  | .local _ .vmem, ⟨4, _⟩ => ⟨S256x2, .f32⟩
  | .local _ .vmem, ⟨5, _⟩ => ⟨S1x256, .f32⟩
  | .local _ .vmem, ⟨6, _⟩ => ⟨S1x256x4096, .f32⟩
  | .local _ .vmem, ⟨7, _⟩ => ⟨S1x256x4096, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x256x64x64_S16x256x4096 : S16x256x64x64.ShapeCasts S16x256x4096
  bcast_S_S256 : S_.BroadcastsInDim S256 (![] : Fin 0 → Fin S256.rank)
  bcast_S_S1 : S_.BroadcastsInDim S1 (![] : Fin 0 → Fin S1.rank)
  bcast_S256_S256x1_0 : S256.BroadcastsInDim S256x1 (![0] : Fin 1 → Fin S256x1.rank)
  concatenates_S256x1_S256x1_S256x2_d1 : Shape.Concatenates [S256x1, S256x1] S256x2 1
  shapeCasts_S256_S1x256 : S256.ShapeCasts S1x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S256x4096_S256 : S256x4096.Reduces [1] S256
  shapeCasts_S256_S256x1 : S256.ShapeCasts S256x1
  slices_S256x2_o0_0_S16x1 : S256x2.Slices ![0, 0] S16x1
  slices_S256x2_o0_1_S256x1 : S256x2.Slices ![0, 1] S256x1
  broadcasts_S256x1_S256x4096 : S256x1.Broadcasts S256x4096
  broadcasts_S1x4096_S256x4096 : S1x4096.Broadcasts S256x4096
  shapeCasts_S256x4096_S1x256x4096 : S256x4096.ShapeCasts S1x256x4096
  shapeCasts_S16x256x4096_S16x256x64x64 : S16x256x4096.ShapeCasts S16x256x64x64
  scatter_S256_S1_S16_0_n_0_0_wf : ScatterDims.WF S256 S1 S16 [0] [] [0] 0
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  dot_S1x256_S256x4096_S1x4096_1_0_0_1_n_n_wf : DotDims.WF S1x256 S256x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x4096.size a
  hwx0_0 : ∀ i : grid0.Coords, EltTy.bits .f32 = 32 ∨ (Rect.block (s := S16x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .f32 = 32 ∨ (Rect.block (s := S256x2) S256x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S16x256x4096.size a
  hwx0_5 : ∀ i : grid0.Coords, EltTy.bits .f32 = 32 ∨ (Rect.block (s := S16x256x4096) S1x256x4096.size (cc0_transform_5 i) (hinb0_5 i)).WholeWords (EltTy.packing .f32)

variable [Facts₀]

def scatter_S256_S1_S16_0_n_0_0 : ScatterDims S256 S1 S16 where
  updateWindowDims := [0]
  insertedWindowDims := []
  scatterDimsToOperandDims := [0]
  indexVectorDim := 0
  wf := scatter_S256_S1_S16_0_n_0_0_wf
def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf
def dot_S1x256_S256x4096_S1x4096_1_0_0_1_n_n : DotDims S1x256 S256x4096 S1x4096 where
  lhsContracting := [1]
  rhsContracting := [0]
  lhsNonContracting := [0]
  rhsNonContracting := [1]
  lhsBatch := []
  rhsBatch := []
  wf := dot_S1x256_S256x4096_S1x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The squeeze-and-excite block, channel and spatial, for one batch element, on the extended reals.

  For a feature map `X c k` of 256 channels `c` by 4096 pixels `k`:
    the channel mean        mean c    = (∑ k, X c k) / 4096,
    the squeezed vector     sq r      = max (∑ c, mean c · wc r c + bc r) 0      (16 entries),
    the channel gate        g c       = σ (∑ r, sq r · we c r + be c),
    the pixel gate          s k       = σ (∑ c, X c k · ws c),
    the result              out c k   = X c k · (g c + s k),
  with σ the logistic function. A batch of 16 maps stored as [16, 256, 64, 64] is treated one map at a time;
  pixel `k` of a map is row `k / 64`, column `k % 64`.
-/
import Idealize.ShloMosaic.PureOps.Ideal
import Idealize.ShloMosaic.Lib.ValueIdx

noncomputable section

open scoped BigOperators

namespace Cert.ScSE

open Idealize.ShloMosaic Idealize.ShloMosaic.ValueIdx

/-- The logistic function on the extended reals, as the ideal instance reads `tpu.logistic`. -/
abbrev sigm (x : EReal) : EReal := FloatOps.logistic (F := Ideal) (φ := .f32) x

/-- The word of 4096.0 and the word of 0.0, read at the ideal instance. -/
abbrev w4096 : EReal := Ideal.ofBits .f32 0x45800000#32
abbrev w0 : EReal := Ideal.ofBits .f32 0x00000000#32

section One

variable (X : Fin 256 → Fin 4096 → EReal) (wc : Fin 16 → Fin 256 → EReal) (bc : Fin 16 → EReal)
  (we : Fin 256 → Fin 16 → EReal) (be : Fin 256 → EReal) (ws : Fin 256 → EReal)

/-- The mean of channel `c` over the 4096 pixels. -/
def mean (c : Fin 256) : EReal := Ideal.div (∑ k : Fin 4096, X c k) w4096

/-- Entry `r` of the squeezed vector: the compressing layer followed by the positive part. -/
def squeeze (r : Fin 16) : EReal := max ((∑ c : Fin 256, mean X c * wc r c) + bc r) w0

/-- The gate of channel `c`. -/
def chanGate (c : Fin 256) : EReal := sigm ((∑ r : Fin 16, squeeze X wc bc r * we c r) + be c)

/-- The gate of pixel `k`. -/
def pixGate (k : Fin 4096) : EReal := sigm (∑ c : Fin 256, X c k * ws c)

/-- The block's result at channel `c`, pixel `k`. -/
def core (c : Fin 256) (k : Fin 4096) : EReal := X c k * (chanGate X wc bc we be c + pixGate X ws k)

end One

/-- Row and column of pixel `k` in a 64 × 64 map, and the pixel of a row and a column. -/
def hi (k : Fin 4096) : Fin 64 := ⟨k.val / 64, by have := k.isLt; omega⟩
def lo (k : Fin 4096) : Fin 64 := ⟨k.val % 64, Nat.mod_lt _ (by decide)⟩
def pix (h w : Fin 64) : Fin 4096 := ⟨h.val * 64 + w.val, by have := h.isLt; have := w.isLt; omega⟩

theorem hi_pix (h w : Fin 64) : hi (pix h w) = h := Fin.ext (by show (h.val * 64 + w.val) / 64 = h.val; have := w.isLt; omega)
theorem lo_pix (h w : Fin 64) : lo (pix h w) = w := Fin.ext (by show (h.val * 64 + w.val) % 64 = w.val; have := w.isLt; omega)
theorem pix_hi_lo (k : Fin 4096) : pix (hi k) (lo k) = k := Fin.ext (by show k.val / 64 * 64 + k.val % 64 = k.val; omega)

/-- The whole block on a batch stored as [16, 256, 64, 64], with the weights stored as [16, 256] (compress),
    [16] (its bias), [256, 16] (excite), [256] (its bias) and [256] (the pixel gate's weight). -/
def scse (x : (⟨4, ![16, 256, 64, 64]⟩ : Shape).Idx → EReal) (wc : (⟨2, ![16, 256]⟩ : Shape).Idx → EReal)
    (bc : (⟨1, ![16]⟩ : Shape).Idx → EReal) (we : (⟨2, ![256, 16]⟩ : Shape).Idx → EReal)
    (be : (⟨1, ![256]⟩ : Shape).Idx → EReal) (ws : (⟨1, ![256]⟩ : Shape).Idx → EReal) :
    (⟨4, ![16, 256, 64, 64]⟩ : Shape).Idx → EReal := fun i =>
  core (fun c k => x (ix4 (i 0) c (hi k) (lo k))) (fun r c => wc (ix2 r c)) (fun r => bc (ix1 r))
    (fun c r => we (ix2 c r)) (fun c => be (ix1 c)) (fun c => ws (ix1 c)) (i 1) (pix (i 2) (i 3))

end Cert.ScSE

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«139465_g2000002610237072_pallasbulk_71_16_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.LibCube.lean ====
/-
  Rank-three blocks read at an entry.

  A kernel that works on a batch of matrices keeps its per-row quantities as columns [A, B, 1] or rows
  [A, 1, B] and spreads them over [A, B, C] blocks; it sums a block along its last axis, or along its middle
  one; the host sums an [A, B, C] array over both trailing axes at once. Each lemma here reads one such
  operation at an entry named by its coordinates: the entry of the operand it is, or the finite sum over
  the coordinates of the summed axes, for any extents A, B, C.
-/
import Idealize.ShloMosaic.Lib.Pipeline.Value
import Idealize.ShloMosaic.Lib.ValueIdx
import Idealize.ShloMosaic.PureOps.Ideal.Laws

noncomputable section

namespace Cert.Lib.Cube

open Idealize.ShloMosaic Idealize.ShloMosaic.ValueIdx

variable {α : Type} {A B C : Nat}

/-! ## Casts between a matrix and a column or a row of it -/

/-- An [A, B] matrix viewed as [A, B, 1]: entry (r, p, 0) is entry (r, p). -/
theorem cast_col (v : (⟨2, ![A, B]⟩ : Shape).Idx → α) (h : (⟨2, ![A, B]⟩ : Shape).ShapeCasts ⟨3, ![A, B, 1]⟩)
    (r : Fin A) (p : Fin B) (z : Fin 1) : shapeCast ⟨3, ![A, B, 1]⟩ v h (ix3 r p z) = v (ix2 r p) :=
  shapeCast_apply v h (ix3 r p z) (ix2 r p) (by
    have hz : z.val = 0 := by have := z.isLt; omega
    rw [Shape.rowMajor_val_two, Shape.rowMajor_val_three]
    show r.val * B + p.val = (r.val * B + p.val) * 1 + z.val
    rw [hz, Nat.mul_one, Nat.add_zero])

/-- An [A, B] matrix viewed as [A, 1, B]: entry (r, 0, q) is entry (r, q). -/
theorem cast_row (v : (⟨2, ![A, B]⟩ : Shape).Idx → α) (h : (⟨2, ![A, B]⟩ : Shape).ShapeCasts ⟨3, ![A, 1, B]⟩)
    (r : Fin A) (z : Fin 1) (q : Fin B) : shapeCast ⟨3, ![A, 1, B]⟩ v h (ix3 r z q) = v (ix2 r q) :=
  shapeCast_apply v h (ix3 r z q) (ix2 r q) (by
    have hz : z.val = 0 := by have := z.isLt; omega
    rw [Shape.rowMajor_val_two, Shape.rowMajor_val_three]
    show r.val * B + q.val = (r.val * 1 + z.val) * B + q.val
    rw [hz, Nat.mul_one, Nat.add_zero])

/-- A [B, C] matrix viewed as [1, B, C]: entry (0, p, q) is entry (p, q). -/
theorem cast_slab (v : (⟨2, ![B, C]⟩ : Shape).Idx → α) (h : (⟨2, ![B, C]⟩ : Shape).ShapeCasts ⟨3, ![1, B, C]⟩)
    (z : Fin 1) (p : Fin B) (q : Fin C) : shapeCast ⟨3, ![1, B, C]⟩ v h (ix3 z p q) = v (ix2 p q) :=
  shapeCast_apply v h (ix3 z p q) (ix2 p q) (by
    have hz : z.val = 0 := by have := z.isLt; omega
    rw [Shape.rowMajor_val_two, Shape.rowMajor_val_three]
    show p.val * C + q.val = (z.val * B + p.val) * C + q.val
    rw [hz, Nat.zero_mul, Nat.zero_add])

/-- The transpose of the two trailing axes of a column [A, B, 1] is the row [A, 1, B]. -/
theorem transpose_col (v : (⟨3, ![A, B, 1]⟩ : Shape).Idx → α)
    (h : (⟨3, ![A, B, 1]⟩ : Shape).Transposes [0, 2, 1] ⟨3, ![A, 1, B]⟩) (r : Fin A) (z : Fin 1) (q : Fin B) :
    transpose ⟨3, ![A, 1, B]⟩ [0, 2, 1] v h (ix3 r z q) = v (ix3 r q z) :=
  transpose_apply [0, 2, 1] v h (ix3 r z q) (ix3 r q z) (fun b => match b with
    | ⟨0, _⟩ => rfl
    | ⟨1, _⟩ => rfl
    | ⟨2, _⟩ => rfl)

/-! ## Columns, rows and slabs spread over a block -/

/-- A column [A, B, 1] repeated along the last axis. -/
theorem spread_col (v : (⟨3, ![A, B, 1]⟩ : Shape).Idx → α) (h : (⟨3, ![A, B, 1]⟩ : Shape).Broadcasts ⟨3, ![A, B, C]⟩)
    (r : Fin A) (p : Fin B) (q : Fin C) : broadcastTo ⟨3, ![A, B, C]⟩ v h (ix3 r p q) = v (ix3 r p (0 : Fin 1)) :=
  broadcastTo_apply v h (ix3 r p q) (ix3 r p (0 : Fin 1)) (fun a => match a with
    | ⟨0, _⟩ => by
        show r.val = if A = 1 then 0 else r.val
        split
        · have := r.isLt; omega
        · rfl
    | ⟨1, _⟩ => by
        show p.val = if B = 1 then 0 else p.val
        split
        · have := p.isLt; omega
        · rfl
    | ⟨2, _⟩ => by show 0 = if (1 : Nat) = 1 then 0 else q.val; rw [if_pos rfl])

/-- A row [A, 1, C] repeated along the middle axis. -/
theorem spread_row (v : (⟨3, ![A, 1, C]⟩ : Shape).Idx → α) (h : (⟨3, ![A, 1, C]⟩ : Shape).Broadcasts ⟨3, ![A, B, C]⟩)
    (r : Fin A) (p : Fin B) (q : Fin C) : broadcastTo ⟨3, ![A, B, C]⟩ v h (ix3 r p q) = v (ix3 r (0 : Fin 1) q) :=
  broadcastTo_apply v h (ix3 r p q) (ix3 r (0 : Fin 1) q) (fun a => match a with
    | ⟨0, _⟩ => by
        show r.val = if A = 1 then 0 else r.val
        split
        · have := r.isLt; omega
        · rfl
    | ⟨1, _⟩ => by show 0 = if (1 : Nat) = 1 then 0 else p.val; rw [if_pos rfl]
    | ⟨2, _⟩ => by
        show q.val = if C = 1 then 0 else q.val
        split
        · have := q.isLt; omega
        · rfl)

/-- A slab [1, B, C] repeated along the leading axis. -/
theorem spread_slab (v : (⟨3, ![1, B, C]⟩ : Shape).Idx → α) (h : (⟨3, ![1, B, C]⟩ : Shape).Broadcasts ⟨3, ![A, B, C]⟩)
    (r : Fin A) (p : Fin B) (q : Fin C) : broadcastTo ⟨3, ![A, B, C]⟩ v h (ix3 r p q) = v (ix3 (0 : Fin 1) p q) :=
  broadcastTo_apply v h (ix3 r p q) (ix3 (0 : Fin 1) p q) (fun a => match a with
    | ⟨0, _⟩ => by show 0 = if (1 : Nat) = 1 then 0 else r.val; rw [if_pos rfl]
    | ⟨1, _⟩ => by
        show p.val = if B = 1 then 0 else p.val
        split
        · have := p.isLt; omega
        · rfl
    | ⟨2, _⟩ => by
        show q.val = if C = 1 then 0 else q.val
        split
        · have := q.isLt; omega
        · rfl)

/-- A column [A, 1] repeated along B lanes. -/
theorem spread_col2 (v : (⟨2, ![A, 1]⟩ : Shape).Idx → α) (h : (⟨2, ![A, 1]⟩ : Shape).Broadcasts ⟨2, ![A, B]⟩)
    (r : Fin A) (p : Fin B) : broadcastTo ⟨2, ![A, B]⟩ v h (ix2 r p) = v (ix2 r (0 : Fin 1)) :=
  broadcastTo_apply v h (ix2 r p) (ix2 r (0 : Fin 1)) (fun a => match a with
    | ⟨0, _⟩ => by
        show r.val = if A = 1 then 0 else r.val
        split
        · have := r.isLt; omega
        · rfl
    | ⟨1, _⟩ => by show 0 = if (1 : Nat) = 1 then 0 else p.val; rw [if_pos rfl])

/-! ## Lane numbers -/

/-- The lane number along the last axis of a matrix. -/
theorem iota_lane (κ : Kind) (h : (⟨2, ![A, B]⟩ : Shape).Iotas κ 32 [1]) (r : Fin A) (p : Fin B) :
    iota κ ⟨2, ![A, B]⟩ 32 [1] h (ix2 r p) = BitVec.ofNat 32 p.val :=
  iota_single_apply κ ⟨2, ![A, B]⟩ 32 1 h (ix2 r p)

/-- The row number of a matrix. -/
theorem iota_row (κ : Kind) (h : (⟨2, ![A, B]⟩ : Shape).Iotas κ 32 [0]) (r : Fin A) (p : Fin B) :
    iota κ ⟨2, ![A, B]⟩ 32 [0] h (ix2 r p) = BitVec.ofNat 32 r.val :=
  iota_single_apply κ ⟨2, ![A, B]⟩ 32 0 h (ix2 r p)

/-! ## Sums along an axis, on the extended reals -/

/-- The sum of an f32 block along its last axis, read at (r, p): the sum over q of the entries (r, p, q). -/
theorem sum_last (src : FVec Ideal ⟨3, ![A, B, C]⟩ .f32) (h : (⟨3, ![A, B, C]⟩ : Shape).Reduces [2] ⟨2, ![A, B]⟩)
    (hφ : FTy.f32 = FTy.f32 ∨ FTy.f32 = FTy.bf16) (hacc : (0x00000000#32 : BitVec 32) = 0x00000000#32) (r : Fin A) (p : Fin B) :
    multiReduction .add [2] ⟨2, ![A, B]⟩ src 0x00000000#32 h hφ hacc (ix2 r p) = ∑ q : Fin C, src (ix3 r p q) := by
  refine (Ideal.multiReduction_add_single src 0x00000000#32 h hφ hacc (ix2 r p)).trans ?_
  exact Finset.sum_congr rfl fun q _ => congrArg src (funext fun a => Fin.ext (by
    match a with
    | ⟨0, _⟩ => rfl
    | ⟨1, _⟩ => rfl
    | ⟨2, _⟩ => rfl))

/-- The sum of an f32 column block [A, B, 1] along its middle axis, read at (r, 0): the sum over p of the
    entries (r, p, 0). -/
theorem sum_mid (src : FVec Ideal ⟨3, ![A, B, 1]⟩ .f32) (h : (⟨3, ![A, B, 1]⟩ : Shape).Reduces [1] ⟨2, ![A, 1]⟩)
    (hφ : FTy.f32 = FTy.f32 ∨ FTy.f32 = FTy.bf16) (hacc : (0x00000000#32 : BitVec 32) = 0x00000000#32) (r : Fin A) (z : Fin 1) :
    multiReduction .add [1] ⟨2, ![A, 1]⟩ src 0x00000000#32 h hφ hacc (ix2 r z) = ∑ p : Fin B, src (ix3 r p z) := by
  refine (Ideal.multiReduction_add_single src 0x00000000#32 h hφ hacc (ix2 r z)).trans ?_
  exact Finset.sum_congr rfl fun p _ => congrArg src (funext fun a => Fin.ext (by
    match a with
    | ⟨0, _⟩ => rfl
    | ⟨1, _⟩ => rfl
    | ⟨2, _⟩ => rfl))

/-- The host's sum of an [A, B, C] array over both trailing axes, read at r: the initial value plus the
    double sum over (p, q) of the entries (r, p, q). -/
theorem host_sum_plane (h : (⟨3, ![A, B, C]⟩ : Shape).ReducesTo [1, 2] ⟨1, ![A]⟩)
    (x : (⟨3, ![A, B, C]⟩ : Shape).Idx → EReal) (init : EReal) (r : Fin A) :
    Ideal.hostReduceAdd h x init (ix1 r) = init + ∑ p : Fin B, ∑ q : Fin C, x (ix3 r p q) := by
  unfold Ideal.hostReduceAdd
  refine congrArg (init + ·) ?_
  rw [← Finset.sum_product']
  refine Finset.sum_nbij' (fun i => ((⟨(i 1).val, (i 1).isLt⟩ : Fin B), (⟨(i 2).val, (i 2).isLt⟩ : Fin C)))
    (fun pq => ix3 r pq.1 pq.2) (fun _ _ => Finset.mem_product.2 ⟨Finset.mem_univ _, Finset.mem_univ _⟩) ?_ ?_ ?_ ?_
  · intro pq _
    refine Finset.mem_filter.2 ⟨Finset.mem_univ _, ?_⟩
    funext b
    match b with
    | ⟨0, _⟩ => exact Fin.ext rfl
  · intro i hi
    have hd := congrFun (Finset.mem_filter.1 hi).2 (0 : Fin 1)
    have h0 : (i 0).val = r.val := congrArg Fin.val hd
    funext a
    match a with
    | ⟨0, _⟩ => exact Fin.ext h0.symm
    | ⟨1, _⟩ => exact Fin.ext rfl
    | ⟨2, _⟩ => exact Fin.ext rfl
  · intro pq _
    rfl
  · intro i hi
    have hd := congrFun (Finset.mem_filter.1 hi).2 (0 : Fin 1)
    have h0 : (i 0).val = r.val := congrArg Fin.val hd
    refine congrArg x (funext fun a => ?_)
    match a with
    | ⟨0, _⟩ => exact Fin.ext h0
    | ⟨1, _⟩ => exact Fin.ext rfl
    | ⟨2, _⟩ => exact Fin.ext rfl

end Cert.Lib.Cube

end
-- ==== Proof.KPay.lean ====
/-
  The kernel body's arithmetic read at one entry, on the extended reals.

  The body holds a block of two feature maps, `x (p, k, c)` for map `p`, pixel `k`, channel `c` (pixels along the
  rows, channels along the lanes). It sums each map down its rows and divides by 4096 (the channel means), passes the
  means through the compressing layer and the positive part, through the exciting layer and the logistic function
  (the channel gates), takes the inner product of every pixel's channel vector with the pixel weight and the logistic
  function of it (the pixel gates), and multiplies every entry by the sum of its two gates. Read at `(p, k, c)` this is
  the specification's `core` of map `p` at channel `c`, pixel `k`.
-/
import proofs.«139465_g2000002610237072_pallasbulk_71_16_alg».proof.Proof.Gen.KernelIdeal.Skeleton
import proofs.«139465_g2000002610237072_pallasbulk_71_16_alg».proof.Proof.Spec
import proofs.«139465_g2000002610237072_pallasbulk_71_16_alg».proof.Proof.LibBlockOps
import proofs.«139465_g2000002610237072_pallasbulk_71_16_alg».proof.Proof.LibPlainDot
import proofs.«139465_g2000002610237072_pallasbulk_71_16_alg».proof.Proof.LibRowForms
import proofs.«139465_g2000002610237072_pallasbulk_71_16_alg».proof.Proof.LibReshape
import proofs.«139465_g2000002610237072_pallasbulk_71_16_alg».proof.Proof.LibCube
import Idealize.ShloMosaic.Lib.ValueIdx
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx Cert.ScSE

/-- The sum of a block of maps down the rows of each map, read at map `p`, channel `c`: the sum over the pixels. -/
theorem colSum_apply {A B C : Nat} (src : FVec Ideal ⟨3, ![A, B, C]⟩ .f32) (h : (⟨3, ![A, B, C]⟩ : Shape).Reduces [1] ⟨2, ![A, C]⟩)
    (hφ : FTy.f32 = FTy.f32 ∨ FTy.f32 = FTy.bf16) (hacc : (0x00000000#32 : BitVec 32) = 0x00000000#32) (p : Fin A) (c : Fin C) :
    multiReduction .add [1] ⟨2, ![A, C]⟩ src 0x00000000#32 h hφ hacc (ix2 p c) = ∑ k : Fin B, src (ix3 p k c) := by
  refine (Ideal.multiReduction_add_single src 0x00000000#32 h hφ hacc (ix2 p c)).trans ?_
  exact Finset.sum_congr rfl fun k _ => congrArg src (funext fun a => Fin.ext (by
    match a with
    | ⟨0, _⟩ => rfl
    | ⟨1, _⟩ => rfl
    | ⟨2, _⟩ => rfl))

/-- The logistic function applied entry by entry. -/
theorem logistic_apply {s : Shape} (v : FVec Ideal s .f32) (i : s.Idx) : logistic v i = sigm (v i) := rfl

section Stages

variable (v0 : FVec Ideal S2x4096x256 .f32) (v5 : FVec Ideal S16x256 .f32) (v7 : FVec Ideal S16 .f32)
  (v13 : FVec Ideal S16x256 .f32) (v16 : FVec Ideal S256 .f32) (v22 : FVec Ideal S256 .f32)

/-- The channel means of the block. -/
def means : FVec Ideal S2x256 .f32 :=
  divf (multiReduction .add [1] S2x256 (shapeCast S2x4096x256 v0 shapeCasts_S2x4096x256_S2x4096x256) 0x00000000#32 reduces_S2x4096x256_S2x256 (.inl rfl) rfl)
    (broadcast S2x256 (Scalar.ofBits .f32 0x45800000#32))

theorem means_apply (p : Fin 2) (c : Fin 256) :
    means v0 (ix2 p c) = mean (fun c k => v0 (ix3 p k c)) c := by
  unfold means mean
  rw [divf_apply, shapeCast_self]
  refine congrArg (fun s => Ideal.div s _) ?_
  exact colSum_apply (A := 2) (B := 4096) (C := 256) v0 reduces_S2x4096x256_S2x256 (.inl rfl) rfl p c

/-- The squeezed vectors of the block: the compressing layer and the positive part. -/
def squeezed : FVec Ideal S2x16 .f32 :=
  maximumf (addf (matmul dot_S2x256_S16x256_S2x16_1_1_0_0_n_n none (means v0) v5 (constant S2x16 .f32 0x00000000#32))
      (broadcastTo S2x16 (shapeCast S1x16 v7 shapeCasts_S16_S1x16) broadcasts_S1x16_S2x16))
    (broadcast S2x16 (Scalar.ofBits .f32 0x00000000#32))

theorem squeezed_apply (p : Fin 2) (r : Fin 16) :
    squeezed v0 v5 v7 (ix2 p r)
      = squeeze (fun c k => v0 (ix3 p k c)) (fun r c => v5 (ix2 r c)) (fun r => v7 (ix1 r)) r := by
  unfold squeezed squeeze
  rw [maximumf_apply, addf_apply]
  refine congrArg₂ max (congrArg₂ (· + ·) ?_ ?_) rfl
  · refine (Cert.Lib.BlockOps.matmul_rows_apply (M := 2) (K := 256) (N := 16) dot_S2x256_S16x256_S2x16_1_1_0_0_n_n_wf none (means v0) v5 p r).trans ?_
    exact Finset.sum_congr rfl fun c _ => by rw [means_apply]
  · refine (Cert.Lib.RowForms.rowBroadcast_apply (M := 2) (N := 16) _ broadcasts_S1x16_S2x16 p r).trans ?_
    exact Cert.Lib.RowForms.vecRow_apply (M := 16) v7 shapeCasts_S16_S1x16 r

/-- The channel gates of the block: the exciting layer and the logistic function. -/
def chanGates : FVec Ideal S2x256 .f32 :=
  logistic (addf (matmul dot_S2x16_S16x256_S2x256_1_0_0_1_n_n none (squeezed v0 v5 v7)
      (shapeCast S16x256 v13 shapeCasts_S16x256_S16x256) (constant S2x256 .f32 0x00000000#32))
    (broadcastTo S2x256 (shapeCast S1x256 v16 shapeCasts_S256_S1x256) broadcasts_S1x256_S2x256))

theorem chanGates_apply (p : Fin 2) (c : Fin 256) :
    chanGates v0 v5 v7 v13 v16 (ix2 p c)
      = chanGate (fun c k => v0 (ix3 p k c)) (fun r c => v5 (ix2 r c)) (fun r => v7 (ix1 r)) (fun c r => v13 (ix2 r c))
          (fun c => v16 (ix1 c)) c := by
  unfold chanGates chanGate
  rw [logistic_apply, addf_apply, shapeCast_self]
  refine congrArg sigm (congrArg₂ (· + ·) ?_ ?_)
  · have hD : dot_S2x16_S16x256_S2x256_1_0_0_1_n_n = DotDims.plain 2 16 256 := rfl
    rw [hD]
    refine (Cert.Lib.PlainDot.matmul_zero_apply (M := 2) (K := 16) (N := 256) none (squeezed v0 v5 v7) v13 p c).trans ?_
    exact Finset.sum_congr rfl fun r _ => by rw [squeezed_apply]
  · refine (Cert.Lib.RowForms.rowBroadcast_apply (M := 2) (N := 256) _ broadcasts_S1x256_S2x256 p c).trans ?_
    exact Cert.Lib.RowForms.vecRow_apply (M := 256) v16 shapeCasts_S256_S1x256 c

/-- The pixel gates of the block, one per row of the two maps laid end to end. -/
def pixGates : FVec Ideal S8192x1 .f32 :=
  logistic (matmul dot_S8192x256_S1x256_S8192x1_1_1_0_0_n_n none
    (shapeCast S8192x256 (shapeCast S2x4096x256 v0 shapeCasts_S2x4096x256_S2x4096x256) shapeCasts_S2x4096x256_S8192x256)
    (shapeCast S1x256 v22 shapeCasts_S256_S1x256) (constant S8192x1 .f32 0x00000000#32))

theorem pixGates_apply (p : Fin 2) (k : Fin 4096) (n : Fin 8192) (hn : n.val = p.val * 4096 + k.val) (z : Fin 1) :
    pixGates v0 v22 (ix2 n z) = pixGate (fun c k => v0 (ix3 p k c)) (fun c => v22 (ix1 c)) k := by
  unfold pixGates pixGate
  rw [logistic_apply, shapeCast_self]
  refine congrArg sigm ?_
  refine (Cert.Lib.BlockOps.matmul_rows_apply (M := 8192) (K := 256) (N := 1) dot_S8192x256_S1x256_S8192x1_1_1_0_0_n_n_wf none _ _ n z).trans ?_
  refine Finset.sum_congr rfl fun c _ => congrArg₂ (· * ·) ?_ ?_
  · exact Cert.Lib.Reshape.merge_apply (a := 2) (b := 4096) (c := 256) (n := 8192) v0 shapeCasts_S2x4096x256_S8192x256 p k c n hn
  · have hz : z = (0 : Fin 1) := Fin.ext (by have := z.isLt; omega)
    rw [hz]
    exact Cert.Lib.RowForms.vecRow_apply (M := 256) v22 shapeCasts_S256_S1x256 c

end Stages

/-- The body's stored value at map `p`, pixel `k`, channel `c` of the block. -/
theorem pay_apply (v0 : FVec Ideal S2x4096x256 .f32) (v5 : FVec Ideal S16x256 .f32) (v7 : FVec Ideal S16 .f32)
    (v13 : FVec Ideal S16x256 .f32) (v16 : FVec Ideal S256 .f32) (v22 : FVec Ideal S256 .f32)
    (p : Fin 2) (k : Fin 4096) (c : Fin 256) :
    k0_pay1 (F := Ideal) v0 v5 v7 v13 v16 v22 (ix3 p k c)
      = core (fun c k => v0 (ix3 p k c)) (fun r c => v5 (ix2 r c)) (fun r => v7 (ix1 r)) (fun c r => v13 (ix2 r c))
          (fun c => v16 (ix1 c)) (fun c => v22 (ix1 c)) c k := by
  have hpay : k0_pay1 (F := Ideal) v0 v5 v7 v13 v16 v22
      = mulf (shapeCast S2x4096x256 v0 shapeCasts_S2x4096x256_S2x4096x256)
          (addf (broadcastTo S2x4096x256 (shapeCast S2x1x256 (chanGates v0 v5 v7 v13 v16) shapeCasts_S2x256_S2x1x256) broadcasts_S2x1x256_S2x4096x256)
            (broadcastTo S2x4096x256 (shapeCast S2x4096x1 (pixGates v0 v22) shapeCasts_S8192x1_S2x4096x1) broadcasts_S2x4096x1_S2x4096x256)) := rfl
  rw [hpay]
  unfold core
  rw [mulf_apply, addf_apply, shapeCast_self]
  refine congrArg₂ (· * ·) rfl (congrArg₂ (· + ·) ?_ ?_)
  · refine (Cert.Lib.Cube.spread_row (A := 2) (B := 4096) (C := 256) _ broadcasts_S2x1x256_S2x4096x256 p k c).trans ?_
    refine (Cert.Lib.Cube.cast_row (A := 2) (B := 256) _ shapeCasts_S2x256_S2x1x256 p (0 : Fin 1) c).trans ?_
    exact chanGates_apply v0 v5 v7 v13 v16 p c
  · refine (Cert.Lib.Cube.spread_col (A := 2) (B := 4096) (C := 256) _ broadcasts_S2x4096x1_S2x4096x256 p k c).trans ?_
    refine (Cert.Lib.Reshape.split_apply (a := 2) (b := 4096) (c := 1) (n := 8192) _ shapeCasts_S8192x1_S2x4096x1 p k (0 : Fin 1)
      ⟨p.val * 4096 + k.val, by have := p.isLt; have := k.isLt; omega⟩ rfl).trans ?_
    exact pixGates_apply v0 v22 p k _ rfl (0 : Fin 1)

end Cert.KernelIdeal.KValue

end
-- ==== Proof.KBlocks.lean ====
/-
  From the blocks to the array.

  The pipeline visits eight grid points; point `t` stages maps `2t` and `2t + 1` of the batch (a block of two whole maps,
  pixels by channels), the five small operands whole, and writes the body's result back as maps `2t` and `2t + 1` of the
  output. Since the body's result for a map depends on that map alone, what point `t` writes back is block `t` of ONE
  function of the operand arrays: at map `b`, pixel `k`, channel `c` the specification's `core` of map `b`. The eight
  blocks tile the sixteen maps, so after the run the output array is that function everywhere.
-/
import proofs.«139465_g2000002610237072_pallasbulk_71_16_alg».proof.Proof.Gen.KernelIdeal.Frame
import proofs.«139465_g2000002610237072_pallasbulk_71_16_alg».proof.Proof.KPay
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.ScSE
open Idealize.ShloMosaic.Pipeline (Dat)

variable (m : (ℓ : Loc nD τ sig) → Buf (Elt Ideal) ℓ)

/-- The output array as one function of the operand arrays: at map `b`, pixel `k`, channel `c`, the block's result for
    map `b` of the batch `A0` (stored maps × pixels × channels), with the compress weight `A1`, the excite weight stored
    transposed `A2`, and the vectors `A3` (compress bias), `A4` (excite bias), `A5` (pixel weight). -/
def wholeOut (A0 : S16x4096x256.Idx → EReal) (A1 : S16x256.Idx → EReal) (A2 : S16x256.Idx → EReal) (A3 : S16.Idx → EReal)
    (A4 : S256.Idx → EReal) (A5 : S256.Idx → EReal) : S16x4096x256.Idx → EReal := fun i =>
  core (fun c k => A0 (ix3 (i 0) k c)) (fun r c => A1 (ix2 r c)) (fun r => A3 (ix1 r)) (fun c r => A2 (ix2 r c))
    (fun c => A4 (ix1 c)) (fun c => A5 (ix1 c)) (i 2) (i 1)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the eight points: the batch window and the output window move one block of two
    maps per point; the small operands stay at block 0. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0 :=
  (by decide +kernel : ∀ t : Fin grid0.N, _)

/-- Map `p` of the block at point `t` is map `2t + p` of the batch. -/
def mapOf (t : Fin cfg0.N) (p : Fin 2) : Fin 16 :=
  ⟨t.val * 2 + p.val, by have := t.isLt; have h8 : cfg0.N = 8 := N_0; have := p.isLt; omega⟩

/-- Where an entry of the staged batch block sits in the batch. -/
theorem emb0 (t : Fin cfg0.N) (p : Fin 2) (k : Fin 4096) (ch : Fin 256) :
    ((cfg0.win 0).blk t).view.emb (ix3 p k ch) = ix3 (mapOf t p) k ch := by
  obtain ⟨e0, e1, e2, -⟩ := idx_facts t
  funext a; apply Fin.ext
  match a with
  | ⟨0, _⟩ => show win0_0.index t (0 : Fin 3) * 2 + 1 * p.val = t.val * 2 + p.val; omega
  | ⟨1, _⟩ => show win0_0.index t (1 : Fin 3) * 4096 + 1 * k.val = k.val; omega
  | ⟨2, _⟩ => show win0_0.index t (2 : Fin 3) * 256 + 1 * ch.val = ch.val; omega

/-- Where an entry of the output block sits in the output. -/
theorem emb6 (t : Fin cfg0.N) (p : Fin 2) (k : Fin 4096) (ch : Fin 256) :
    ((cfg0.win 6).blk t).view.emb (ix3 p k ch) = ix3 (mapOf t p) k ch := by
  obtain ⟨-, -, -, e0, e1, e2, -⟩ := idx_facts t
  funext a; apply Fin.ext
  match a with
  | ⟨0, _⟩ => show win0_6.index t (0 : Fin 3) * 2 + 1 * p.val = t.val * 2 + p.val; omega
  | ⟨1, _⟩ => show win0_6.index t (1 : Fin 3) * 4096 + 1 * k.val = k.val; omega
  | ⟨2, _⟩ => show win0_6.index t (2 : Fin 3) * 256 + 1 * ch.val = ch.val; omega

/-- The small operands' blocks are the operands themselves. -/
theorem emb1 (t : Fin cfg0.N) (r : Fin 16) (ch : Fin 256) : ((cfg0.win 1).blk t).view.emb (ix2 r ch) = ix2 r ch := by
  obtain ⟨-, -, -, -, -, -, e0, e1, -⟩ := idx_facts t
  funext a; apply Fin.ext
  match a with
  | ⟨0, _⟩ => show win0_1.index t (0 : Fin 2) * 16 + 1 * r.val = r.val; omega
  | ⟨1, _⟩ => show win0_1.index t (1 : Fin 2) * 256 + 1 * ch.val = ch.val; omega
theorem emb2 (t : Fin cfg0.N) (r : Fin 16) (ch : Fin 256) : ((cfg0.win 2).blk t).view.emb (ix2 r ch) = ix2 r ch := by
  obtain ⟨-, -, -, -, -, -, -, -, e0, e1, -⟩ := idx_facts t
  funext a; apply Fin.ext
  match a with
  | ⟨0, _⟩ => show win0_2.index t (0 : Fin 2) * 16 + 1 * r.val = r.val; omega
  | ⟨1, _⟩ => show win0_2.index t (1 : Fin 2) * 256 + 1 * ch.val = ch.val; omega
theorem emb3 (t : Fin cfg0.N) (r : Fin 16) : ((cfg0.win 3).blk t).view.emb (ix1 r) = ix1 r := by
  obtain ⟨-, -, -, -, -, -, -, -, -, -, e0, -⟩ := idx_facts t
  funext a; apply Fin.ext
  match a with
  | ⟨0, _⟩ => show win0_3.index t (0 : Fin 1) * 16 + 1 * r.val = r.val; omega
theorem emb4 (t : Fin cfg0.N) (ch : Fin 256) : ((cfg0.win 4).blk t).view.emb (ix1 ch) = ix1 ch := by
  obtain ⟨-, -, -, -, -, -, -, -, -, -, -, e0, -⟩ := idx_facts t
  funext a; apply Fin.ext
  match a with
  | ⟨0, _⟩ => show win0_4.index t (0 : Fin 1) * 256 + 1 * ch.val = ch.val; omega
theorem emb5 (t : Fin cfg0.N) (ch : Fin 256) : ((cfg0.win 5).blk t).view.emb (ix1 ch) = ix1 ch := by
  obtain ⟨-, -, -, -, -, -, -, -, -, -, -, -, e0⟩ := idx_facts t
  funext a; apply Fin.ext
  match a with
  | ⟨0, _⟩ => show win0_5.index t (0 : Fin 1) * 256 + 1 * ch.val = ch.val; omega

/-- WHAT POINT `t` WRITES BACK is block `t` of `wholeOut` of the operand arrays as the region finds them. -/
theorem flushed_eq (c : Dev nD) (t : Fin cfg0.N) :
    (dats m 0 c).flushed 6 t = ((cfg0.win 6).blk t).view.read (Elt Ideal)
      (wholeOut (V m c main_v1) (V m c main_arg1) (V m c main_v2) (V m c main_arg2) (V m c main_arg4) (V m c main_arg5)) := by
  show (cfg0.win 6).cut (grid0.coords t) ((dats m 0 c).after 6 t) = _
  rw [after0_6]
  unfold out0_6
  rw [View.canon_unit_zero hz3]
  simp only [View.ld_unit_zero (S := S2x4096x256) hz3, View.ld_unit_zero (S := S16x256) hz2, View.ld_unit_zero (S := S16) hz1,
    View.ld_unit_zero (S := S256) hz1]
  funext j
  obtain ⟨p, k, ch, rfl⟩ : ∃ (p : Fin 2) (k : Fin 4096) (ch : Fin 256), j = ix3 p k ch := ⟨j 0, j 1, j 2, eq_ix3 j⟩
  show k0_pay1 (iblk m c 0 t) (iblk m c 1 t) (iblk m c 3 t) (iblk m c 2 t) (iblk m c 4 t) (iblk m c 5 t) (ix3 p k ch)
    = wholeOut (V m c main_v1) (V m c main_arg1) (V m c main_v2) (V m c main_arg2) (V m c main_arg4) (V m c main_arg5)
        (((cfg0.win 6).blk t).view.emb (ix3 p k ch))
  refine (pay_apply (iblk m c 0 t) (iblk m c 1 t) (iblk m c 3 t) (iblk m c 2 t) (iblk m c 4 t) (iblk m c 5 t) p k ch).trans ?_
  rw [emb6]
  unfold wholeOut
  have h0 : (fun (c' : Fin 256) (k' : Fin 4096) => iblk m c 0 t (ix3 p k' c')) = fun c' k' => V m c main_v1 (ix3 (mapOf t p) k' c') :=
    funext fun c' => funext fun k' => congrArg (V m c main_v1) (emb0 t p k' c')
  have h1 : (fun (r : Fin 16) (c' : Fin 256) => iblk m c 1 t (ix2 r c')) = fun r c' => V m c main_arg1 (ix2 r c') :=
    funext fun r => funext fun c' => congrArg (V m c main_arg1) (emb1 t r c')
  have h2 : (fun (c' : Fin 256) (r : Fin 16) => iblk m c 2 t (ix2 r c')) = fun c' r => V m c main_v2 (ix2 r c') :=
    funext fun c' => funext fun r => congrArg (V m c main_v2) (emb2 t r c')
  have h3 : (fun (r : Fin 16) => iblk m c 3 t (ix1 r)) = fun r => V m c main_arg2 (ix1 r) :=
    funext fun r => congrArg (V m c main_arg2) (emb3 t r)
  have h4 : (fun (c' : Fin 256) => iblk m c 4 t (ix1 c')) = fun c' => V m c main_arg4 (ix1 c') :=
    funext fun c' => congrArg (V m c main_arg4) (emb4 t c')
  have h5 : (fun (c' : Fin 256) => iblk m c 5 t (ix1 c')) = fun c' => V m c main_arg5 (ix1 c') :=
    funext fun c' => congrArg (V m c main_arg5) (emb5 t c')
  rw [h0, h1, h2, h3, h4, h5]

/-- An index of the output is in point `t`'s block iff each coordinate is in the block's range on its axis. -/
theorem mem_blk (t : Fin cfg0.N) (i : S16x4096x256.Idx) :
    i ∈ ((cfg0.win 6).blk t).view.set ↔ ∀ a : Fin 3, win0_6.index t a * S2x4096x256.size a ≤ (i a).val
      ∧ (i a).val < win0_6.index t a * S2x4096x256.size a + S2x4096x256.size a := by
  show i ∈ ((View.whole main_v3).slice (win0_6.rect t)).set ↔ _
  rw [View.set_slice_whole, Rect.mem_set_unit]
  exact Iff.rfl

/-- Every index of the output lies in the block of the point that holds its map: map `b` is written at point `b / 2`. -/
theorem cover (i : S16x4096x256.Idx) :
    ∃ t : Fin cfg0.N, (cfg0.win 6).flush t = true ∧ i ∈ ((cfg0.win 6).blk t).view.set := by
  have h8 : cfg0.N = 8 := N_0
  have hi0 : (i 0).val < 16 := (i 0).isLt
  have hi1 : (i 1).val < 4096 := (i 1).isLt
  have hi2 : (i 2).val < 256 := (i 2).isLt
  let t : Fin cfg0.N := ⟨(i 0).val / 2, by omega⟩
  obtain ⟨-, -, -, e0, e1, e2, -⟩ := idx_facts t
  have ht : t.val = (i 0).val / 2 := rfl
  refine ⟨t, flush0_6 t, ?_⟩
  rw [mem_blk]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 4096 ≤ (i 1).val ∧ (i 1).val < win0_6.index t (1 : Fin 3) * 4096 + 4096; omega
  | ⟨2, _⟩ => show win0_6.index t (2 : Fin 3) * 256 ≤ (i 2).val ∧ (i 2).val < win0_6.index t (2 : Fin 3) * 256 + 256; omega

/-- THE OUTPUT ARRAY after the run: `wholeOut` of the operand arrays as the region finds them. -/
theorem final (c : Dev nD) : (dats m 0 c).arrAt 6 cfg0.N
    = wholeOut (V m c main_v1) (V m c main_arg1) (V m c main_v2) (V m c main_arg2) (V m c main_arg4) (V m c main_arg5) :=
  (dats m 0 c).arrAt_eq_of_cover 6 _ (fun t _ => flushed_eq m c t) cover

end Cert.KernelIdeal.KValue

end
-- ==== Proof.LibLeadAxes.lean ====
/-
  Arrays that differ by a leading unit axis, or by a split of the leading axis, read at an entry.

  A shape cast keeps the row-major position of every entry.
  * A `B × C` matrix viewed as a `1 × B × C` slab reads, at `(0, p, q)`, the matrix at `(p, q)` (`slab_apply`).
  * A rank-three array re-read at rank four holds, at each index, the entry with the same row-major position
    (`three_four_apply`): splitting the leading axis `a·b` of an `(a·b) × c × d` array into `a × b` sends `(i, j, k, l)`
    to `(i·b + j, k, l)`.
-/
import Idealize.ShloMosaic.Lib.ValueIdx
import Idealize.ShloMosaic.Lib.Pipeline.Value

noncomputable section

namespace Cert.Lib.LeadAxes

open Idealize.ShloMosaic Idealize.ShloMosaic.ValueIdx

variable {α : Type}

/-- A `B × C` matrix viewed as a `1 × B × C` slab: entry `(0, p, q)` is entry `(p, q)`. -/
theorem slab_apply {B C : ℕ} (v : (⟨2, ![B, C]⟩ : Shape).Idx → α) (h : (⟨2, ![B, C]⟩ : Shape).ShapeCasts ⟨3, ![1, B, C]⟩)
    (p : Fin B) (q : Fin C) : shapeCast ⟨3, ![1, B, C]⟩ v h (ix3 (0 : Fin 1) p q) = v (ix2 p q) :=
  shapeCast_apply v h (ix3 (0 : Fin 1) p q) (ix2 p q) (by
    rw [Shape.rowMajor_val_two, Shape.rowMajor_val_three]
    show p.val * C + q.val = (0 * B + p.val) * C + q.val
    rw [Nat.zero_mul, Nat.zero_add])

/-- A rank-three array re-read at rank four: entry `(i, h, p, d)` of the result is the operand at the index
    `(i', l, e)` with the same row-major position. -/
theorem three_four_apply {a0 a1 a2 b0 b1 b2 b3 : ℕ} (x : (⟨3, ![a0, a1, a2]⟩ : Shape).Idx → α)
    (hc : (⟨3, ![a0, a1, a2]⟩ : Shape).ShapeCasts ⟨4, ![b0, b1, b2, b3]⟩)
    (i : Fin b0) (h : Fin b1) (p : Fin b2) (d : Fin b3) (i' : Fin a0) (l : Fin a1) (e : Fin a2)
    (hpos : (i'.val * a1 + l.val) * a2 + e.val = ((i.val * b1 + h.val) * b2 + p.val) * b3 + d.val) :
    shapeCast ⟨4, ![b0, b1, b2, b3]⟩ x hc (ix4 i h p d) = x (ix3 i' l e) :=
  shapeCast_apply x hc _ _ (by
    rw [Shape.rowMajor_val_three, Shape.rowMajor_val_four]
    exact hpos)

end Cert.Lib.LeadAxes

end
-- ==== Proof.KHost.lean ====
/-
  The host operations around the region, read at an entry.

  Before the region the host moves the channel axis of the batch [16, 256, 64, 64] last and merges rows and columns of
  each map into one pixel axis: entry (b, k, c) of the staged batch is entry (b, c, k / 64, k % 64) of the argument. It
  also transposes the excite weight [256, 16]: entry (r, c) of the staged weight is entry (c, r) of the argument. After
  the region it splits the pixel axis again and moves the channel axis back: entry (b, c, h, w) of the result is entry
  (b, 64 h + w, c) of the region's output.
-/
import proofs.«139465_g2000002610237072_pallasbulk_71_16_alg».proof.Proof.Gen.KernelIdeal.Frame
import proofs.«139465_g2000002610237072_pallasbulk_71_16_alg».proof.Proof.Spec
import proofs.«139465_g2000002610237072_pallasbulk_71_16_alg».proof.Proof.LibReshape
import proofs.«139465_g2000002610237072_pallasbulk_71_16_alg».proof.Proof.LibLeadAxes
import Idealize.ShloMosaic.Lib.StableHlo.Run
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx Cert.ScSE Idealize.ShloMosaic.StableHlo

variable (m : (ℓ : Loc nD τ sig) → Buf (Elt Ideal) ℓ)

/-- The staged batch is the argument with its channel axis moved last and its map axes merged. -/
theorem V_v1 (c : Dev nD) : (V m c main_v1 : S16x4096x256.Idx → EReal)
    = shapeCast S16x4096x256 (transpose S16x64x64x256 [0, 2, 3, 1] (m ((c : Thread nD τ).loc main_arg0))
        transposes_S16x256x64x64_S16x64x64x256_0_2_3_1) shapeCasts_S16x64x64x256_S16x4096x256 := by
  show StableHlo.after hostOps0 (fun b => m (c, b)) (Proc.devRef .tc main_v1) = _
  after_results
  rfl

/-- The staged excite weight is the argument transposed. -/
theorem V_v2 (c : Dev nD) : (V m c main_v2 : S16x256.Idx → EReal)
    = transpose S16x256 [1, 0] (m ((c : Thread nD τ).loc main_arg3)) transposes_S256x16_S16x256_1_0 := by
  show StableHlo.after hostOps0 (fun b => m (c, b)) (Proc.devRef .tc main_v2) = _
  after_results

/-- Entry (b, k, c) of the staged batch. -/
theorem V_v1_apply (c : Dev nD) (b : Fin 16) (k : Fin 4096) (ch : Fin 256) :
    (V m c main_v1 : S16x4096x256.Idx → EReal) (ix3 b k ch) = m ((c : Thread nD τ).loc main_arg0) (ix4 b ch (hi k) (lo k)) := by
  refine (congrFun (V_v1 m c) (ix3 b k ch)).trans ?_
  refine (Cert.Lib.Reshape.four_three_apply _ shapeCasts_S16x64x64x256_S16x4096x256 b k ch b (hi k) (lo k) ch ?_).trans ?_
  · show ((b.val * 64 + k.val / 64) * 64 + k.val % 64) * 256 + ch.val = (b.val * 4096 + k.val) * 256 + ch.val
    omega
  · exact transpose_apply [0, 2, 3, 1] _ transposes_S16x256x64x64_S16x64x64x256_0_2_3_1 (ix4 b (hi k) (lo k) ch) (ix4 b ch (hi k) (lo k))
      (fun a => match a with
        | ⟨0, _⟩ => rfl
        | ⟨1, _⟩ => rfl
        | ⟨2, _⟩ => rfl
        | ⟨3, _⟩ => rfl)

/-- Entry (r, c) of the staged excite weight. -/
theorem V_v2_apply (c : Dev nD) (r : Fin 16) (ch : Fin 256) :
    (V m c main_v2 : S16x256.Idx → EReal) (ix2 r ch) = m ((c : Thread nD τ).loc main_arg3) (ix2 ch r) := by
  refine (congrFun (V_v2 m c) (ix2 r ch)).trans ?_
  exact transpose_ix2_apply _ _ r ch

/-- The two host operations after the region, as one function of the region's output. -/
def tail (o : S16x4096x256.Idx → EReal) : S16x256x64x64.Idx → EReal :=
  transpose S16x256x64x64 [0, 3, 1, 2] (shapeCast S16x64x64x256 o shapeCasts_S16x4096x256_S16x64x64x256)
    transposes_S16x64x64x256_S16x256x64x64_0_3_1_2

/-- Entry (b, c, h, w) of the result is entry (b, 64 h + w, c) of the region's output. -/
theorem tail_apply (o : S16x4096x256.Idx → EReal) (b : Fin 16) (ch : Fin 256) (h w : Fin 64) :
    tail o (ix4 b ch h w) = o (ix3 b (pix h w) ch) := by
  unfold tail
  refine (transpose_apply [0, 3, 1, 2] _ transposes_S16x64x64x256_S16x256x64x64_0_3_1_2 (ix4 b ch h w) (ix4 b h w ch)
    (fun a => match a with
      | ⟨0, _⟩ => rfl
      | ⟨1, _⟩ => rfl
      | ⟨2, _⟩ => rfl
      | ⟨3, _⟩ => rfl)).trans ?_
  refine Cert.Lib.LeadAxes.three_four_apply o shapeCasts_S16x4096x256_S16x64x64x256 b h w ch b (pix h w) ch ?_
  show (b.val * 4096 + (h.val * 64 + w.val)) * 256 + ch.val = ((b.val * 64 + h.val) * 64 + w.val) * 256 + ch.val
  omega

end Cert.KernelIdeal.KValue

end
-- ==== Proof.KRun.lean ====
/-
  The idealized kernel's run, read: the result array is the specification of the arguments.

  The region leaves its output array at one function of the staged operands (the blocks tile it); the host operations
  before the region make the staged batch and the staged excite weight rearrangements of the arguments, and the ones
  after it rearrange the output back. Entry (b, c, h, w) of the result is therefore the block's value for map `b` of the
  argument batch at channel `c`, pixel `64 h + w`.
-/
import proofs.«139465_g2000002610237072_pallasbulk_71_16_alg».proof.Proof.KBlocks
import proofs.«139465_g2000002610237072_pallasbulk_71_16_alg».proof.Proof.KHost

noncomputable section

namespace Cert.KernelIdeal.KValue

open Cert.KernelIdeal Cert.KernelIdeal.Gen Idealize.ShloMosaic Idealize.ShloMosaic.TcCoe Idealize.SL.Sem
open Idealize.ShloMosaic.ValueIdx Cert.ScSE Idealize.ShloMosaic.StableHlo
open Idealize.ShloMosaic.Pipeline (Dat)

variable (m : (ℓ : Loc nD τ sig) → Buf (Elt Ideal) ℓ) (ρ : Dev nD → PrngReg)

/-- The result buffer after the host operations that follow the region: they applied to the region's output array. -/
theorem tail_result (c : Dev nD) :
    (Pipeline.afterTail₀ cfgs (dats m) 0 (V0 m) [hostOps1] c main_v5 : S16x256x64x64.Idx → EReal)
      = tail ((dats m 0 c).arrAt 6 cfg0.N) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3)
      = (dats m 0 c).arrAt 6 cfg0.N :=
    Pipeline.withArrays_arr spec0 launch0.win.arr_inj c (V0 m c) (fun w => (dats m 0 c).arrAt w cfg0.N) 6
  rw [hw]
  rfl

/-- The result array is the specification of the argument arrays. -/
theorem result_eq (c : Dev nD) :
    (Pipeline.afterTail₀ cfgs (dats m) 0 (V0 m) [hostOps1] c main_v5 : S16x256x64x64.Idx → EReal)
      = scse (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_result, final]
  funext i
  obtain ⟨b, ch, h, w, rfl⟩ : ∃ (b : Fin 16) (ch : Fin 256) (h w : Fin 64), i = ix4 b ch h w := ⟨i 0, i 1, i 2, i 3, eq_ix4 i⟩
  rw [tail_apply]
  unfold wholeOut scse
  have h0 : (fun (c' : Fin 256) (k' : Fin 4096) => (V m c main_v1 : S16x4096x256.Idx → EReal) (ix3 b k' c'))
      = fun c' k' => m ((c : Thread nD τ).loc main_arg0) (ix4 b c' (hi k') (lo k')) :=
    funext fun c' => funext fun k' => V_v1_apply m c b k' c'
  have h2 : (fun (c' : Fin 256) (r : Fin 16) => (V m c main_v2 : S16x256.Idx → EReal) (ix2 r c'))
      = fun c' r => m ((c : Thread nD τ).loc main_arg3) (ix2 c' r) :=
    funext fun c' => funext fun r => V_v2_apply m c r c'
  show core (fun c' k' => (V m c main_v1 : S16x4096x256.Idx → EReal) (ix3 b k' c')) (fun r c' => V m c main_arg1 (ix2 r c'))
      (fun r => V m c main_arg2 (ix1 r)) (fun c' r => (V m c main_v2 : S16x256.Idx → EReal) (ix2 r c'))
      (fun c' => V m c main_arg4 (ix1 c')) (fun c' => V m c main_arg5 (ix1 c')) ch (pix h w) = _
  rw [h0, h2, V_main_arg1, V_main_arg2, V_main_arg4, V_main_arg5]

/-- THE RUN: every weakly fair execution of the idealized kernel terminates with the result array at the
    specification of the arguments and the arguments unchanged. -/
theorem run : θ_run defs (onTc (τ := τ) (main (F := Ideal))) ⟨m, fun _ => 0, ρ⟩ (fun r => ∀ c : Dev nD,
      r.2.mem ((c.tc : Thread nD τ).loc main_v5)
        = scse (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v5 (Pipeline.mem_restRefs_of main_v5 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KValue

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.RefPay.lean ====
/-
  The reference body's arithmetic at one entry of its result block.

  The body receives one feature map as a [1, 256, 4096] block together with the compressing weight [16, 256], the
  exciting weight [256, 16], a [256, 2] array holding the compressing bias in its first column (rows 0 … 15) and the
  exciting bias in its second, and the pixel gate's weight as a [1, 256] row. Each stage below is one value of the body,
  read at an entry:

    the map as a matrix          (c, k) ↦ X c k,
    the column of channel means  (c, 0) ↦ (∑ k, X c k) / 4096,
    the squeezed column          (r, 0) ↦ max (∑ c, wc r c · mean c + bc r) 0,
    the channel gates            (c, 0) ↦ σ (∑ r, we c r · sq r + be c),
    the pixel gates              (0, k) ↦ σ (∑ c, ws c · X c k),

  and the stored block at (0, c, k) is X c k · (gate c + gate k). The three matrix products have the weight as their
  left factor; the specification writes each product with the data on the left, so every sum is matched term by term
  through the commutativity of the product.
-/
import proofs.«139465_g2000002610237072_pallasbulk_71_16_alg».proof.Proof.Gen.ReferenceIdeal.Skeleton
import proofs.«139465_g2000002610237072_pallasbulk_71_16_alg».proof.Proof.Spec
import proofs.«139465_g2000002610237072_pallasbulk_71_16_alg».proof.Proof.LibPlainDot
import proofs.«139465_g2000002610237072_pallasbulk_71_16_alg».proof.Proof.LibBlockOps
import proofs.«139465_g2000002610237072_pallasbulk_71_16_alg».proof.Proof.LibColumn
import proofs.«139465_g2000002610237072_pallasbulk_71_16_alg».proof.Proof.LibRowForms
import proofs.«139465_g2000002610237072_pallasbulk_71_16_alg».proof.Proof.LibLeadAxes
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen
/-! ## The three products are plain row-by-column products -/

theorem dot_compress : dot_S16x256_S256x1_S16x1_1_0_0_1_n_n = DotDims.plain 16 256 1 := rfl
theorem dot_excite : dot_S256x16_S16x1_S256x1_1_0_0_1_n_n = DotDims.plain 256 16 1 := rfl
theorem dot_pixel : dot_S1x256_S256x4096_S1x4096_1_0_0_1_n_n = DotDims.plain 1 256 4096 := rfl

/-! ## The stages of the body, as functions of what it loads -/

section Stages

variable {F : FTy → Type} [FloatOps F]
variable (x0 : Vec F S1x256x4096 .f32) (x1 : Vec F S16x256 .f32) (x2 : Vec F S256x16 .f32)
  (x3 : Vec F S256x2 .f32) (x4 : Vec F S1x256 .f32)

/-- The feature map as a 256 × 4096 matrix. -/
def mapMat : FVec F S256x4096 .f32 := shapeCast S256x4096 x0 shapeCasts_S1x256x4096_S256x4096

/-- The column of channel means. -/
def meanCol : FVec F S256x1 .f32 :=
  divf (shapeCast S256x1 (multiReduction .add [1] S256 (mapMat x0) 0x00000000#32 reduces_S256x4096_S256 (.inl rfl) rfl)
      shapeCasts_S256_S256x1)
    (broadcast S256x1 (Scalar.ofBits .f32 0x45800000#32))

/-- The squeezed column: the compressing layer, its bias, the positive part. -/
def squeezeCol : FVec F S16x1 .f32 :=
  maximumf
    (addf (matmul dot_S16x256_S256x1_S16x1_1_0_0_1_n_n none x1 (meanCol x0) (constant S16x1 .f32 0x00000000#32))
      (extractStridedSlice S16x1 ![0, 0] (shapeCast S256x2 x3 shapeCasts_S256x2_S256x2) slices_S256x2_o0_0_S16x1))
    (broadcast S16x1 (Scalar.ofBits .f32 0x00000000#32))

/-- The column of channel gates. -/
def chanCol : FVec F S256x1 .f32 :=
  logistic
    (addf (matmul dot_S256x16_S16x1_S256x1_1_0_0_1_n_n none x2 (squeezeCol x0 x1 x3) (constant S256x1 .f32 0x00000000#32))
      (extractStridedSlice S256x1 ![0, 1] (shapeCast S256x2 x3 shapeCasts_S256x2_S256x2) slices_S256x2_o0_1_S256x1))

/-- The row of pixel gates. -/
def pixRow : FVec F S1x4096 .f32 :=
  logistic
    (matmul dot_S1x256_S256x4096_S1x4096_1_0_0_1_n_n none (shapeCast S1x256 x4 shapeCasts_S1x256_S1x256) (mapMat x0)
      (constant S1x4096 .f32 0x00000000#32))

/-- The body's stored block is the map times the sum of the two gates, each spread over the matrix. -/
theorem pay_stages : k0_pay1 x0 x1 x2 x3 x4
    = shapeCast S1x256x4096
        (mulf (mapMat x0)
          (addf (broadcastTo S256x4096 (chanCol x0 x1 x2 x3) broadcasts_S256x1_S256x4096)
            (broadcastTo S256x4096 (pixRow x0 x4) broadcasts_S1x4096_S256x4096)))
        shapeCasts_S256x4096_S1x256x4096 := rfl

end Stages

/-! ## Each stage at an entry, on the extended reals -/

section Read

variable (x0 : Vec Ideal S1x256x4096 .f32) (x1 : Vec Ideal S16x256 .f32) (x2 : Vec Ideal S256x16 .f32)
  (x3 : Vec Ideal S256x2 .f32) (x4 : Vec Ideal S1x256 .f32)

/-- Row `r` of the 16 compressing rows, as a row of the 256-row bias array. -/
def wide (r : Fin 16) : Fin 256 := ⟨r.val, by have := r.isLt; omega⟩

/-- The block's coordinate functions, as the specification takes them. -/
abbrev X : Fin 256 → Fin 4096 → EReal := fun c k => x0 (ix3 (0 : Fin 1) c k)
abbrev Wc : Fin 16 → Fin 256 → EReal := fun r c => x1 (ix2 r c)
abbrev Bc : Fin 16 → EReal := fun r => x3 (ix2 (wide r) (0 : Fin 2))
abbrev We : Fin 256 → Fin 16 → EReal := fun c r => x2 (ix2 c r)
abbrev Be : Fin 256 → EReal := fun c => x3 (ix2 c (1 : Fin 2))
abbrev Ws : Fin 256 → EReal := fun c => x4 (ix2 (0 : Fin 1) c)

/-- The map as a matrix, at `(c, k)`. -/
theorem mapMat_apply (c : Fin 256) (k : Fin 4096) : mapMat x0 (ix2 c k) = X x0 c k :=
  Cert.Lib.RowForms.unslab_apply x0 shapeCasts_S1x256x4096_S256x4096 c k

/-- The column of means, at `(c, 0)`: the sum of row `c` of the map over 4096. -/
theorem meanCol_apply (c : Fin 256) : meanCol x0 (ix2 c (0 : Fin 1)) = Cert.ScSE.mean (X x0) c := by
  refine (divf_apply _ _ _).trans ?_
  refine congrArg (fun z => Ideal.div z Cert.ScSE.w4096) ?_
  refine (Cert.Lib.Column.col_apply _ shapeCasts_S256_S256x1 c).trans ?_
  refine (Cert.Lib.BlockOps.rowSum_apply (mapMat x0) 0x00000000#32 reduces_S256x4096_S256 (.inl rfl) rfl c).trans ?_
  exact Finset.sum_congr rfl fun k _ => mapMat_apply x0 c k

/-- The bias array read as it was loaded: the cast to its own shape changes nothing. -/
theorem biasArr_eq : shapeCast S256x2 x3 shapeCasts_S256x2_S256x2 = x3 := shapeCast_self x3 _

/-- The squeezed column, at `(r, 0)`. -/
theorem squeezeCol_apply (r : Fin 16) :
    squeezeCol x0 x1 x3 (ix2 r (0 : Fin 1)) = Cert.ScSE.squeeze (X x0) (Wc x1) (Bc x3) r := by
  refine (maximumf_apply _ _ _).trans ?_
  refine congrArg (fun z => max z Cert.ScSE.w0) ?_
  refine (addf_apply _ _ _).trans ?_
  refine congrArg₂ (fun a b : EReal => a + b) ?_ ?_
  · refine (Cert.Lib.PlainDot.matmul_zero_apply (M := 16) (K := 256) (N := 1) none x1 (meanCol x0) r (0 : Fin 1)).trans ?_
    exact Finset.sum_congr rfl fun c _ => by rw [meanCol_apply]; exact mul_comm _ _
  · refine (extractStridedSlice_apply ![0, 0] _ slices_S256x2_o0_0_S16x1 (ix2 r (0 : Fin 1)) (ix2 (wide r) (0 : Fin 2))
      (fun a => match a with
        | ⟨0, _⟩ => by show r.val = 0 + r.val; omega
        | ⟨1, _⟩ => by show 0 = 0 + 0; rfl)).trans ?_
    exact congrFun (biasArr_eq x3) _

/-- The channel gates, at `(c, 0)`. -/
theorem chanCol_apply (c : Fin 256) :
    chanCol x0 x1 x2 x3 (ix2 c (0 : Fin 1)) = Cert.ScSE.chanGate (X x0) (Wc x1) (Bc x3) (We x2) (Be x3) c := by
  refine congrArg (fun z => Cert.ScSE.sigm z) ?_
  refine (addf_apply _ _ _).trans ?_
  refine congrArg₂ (fun a b : EReal => a + b) ?_ ?_
  · refine (Cert.Lib.PlainDot.matmul_zero_apply (M := 256) (K := 16) (N := 1) none x2 (squeezeCol x0 x1 x3) c (0 : Fin 1)).trans ?_
    exact Finset.sum_congr rfl fun r _ => by rw [squeezeCol_apply]; exact mul_comm _ _
  · refine (extractStridedSlice_apply ![0, 1] _ slices_S256x2_o0_1_S256x1 (ix2 c (0 : Fin 1)) (ix2 c (1 : Fin 2))
      (fun a => match a with
        | ⟨0, _⟩ => by show c.val = 0 + c.val; omega
        | ⟨1, _⟩ => by show 1 = 1 + 0; rfl)).trans ?_
    exact congrFun (biasArr_eq x3) _

/-- The pixel gates, at `(0, k)`. -/
theorem pixRow_apply (k : Fin 4096) : pixRow x0 x4 (ix2 (0 : Fin 1) k) = Cert.ScSE.pixGate (X x0) (Ws x4) k := by
  refine congrArg (fun z => Cert.ScSE.sigm z) ?_
  refine (Cert.Lib.PlainDot.matmul_zero_apply (M := 1) (K := 256) (N := 4096) none
    (shapeCast S1x256 x4 shapeCasts_S1x256_S1x256) (mapMat x0) (0 : Fin 1) k).trans ?_
  exact Finset.sum_congr rfl fun c _ => by
    rw [mapMat_apply, shapeCast_self x4 shapeCasts_S1x256_S1x256]; exact mul_comm _ _

/-- THE BODY'S RESULT at entry `(0, c, k)` of its block: the specification's value for this map at channel `c`,
    pixel `k`. -/
theorem pay_apply (c : Fin 256) (k : Fin 4096) :
    k0_pay1 x0 x1 x2 x3 x4 (ix3 (0 : Fin 1) c k)
      = Cert.ScSE.core (X x0) (Wc x1) (Bc x3) (We x2) (Be x3) (Ws x4) c k := by
  rw [pay_stages]
  refine (Cert.Lib.LeadAxes.slab_apply _ shapeCasts_S256x4096_S1x256x4096 c k).trans ?_
  refine (mulf_apply _ _ _).trans ?_
  refine congrArg₂ (fun a b : EReal => a * b) (mapMat_apply x0 c k) ?_
  refine (addf_apply _ _ _).trans ?_
  refine congrArg₂ (fun a b : EReal => a + b) ?_ ?_
  · exact (Cert.Lib.Column.colBroadcast_apply _ broadcasts_S256x1_S256x4096 c k).trans (chanCol_apply x0 x1 x2 x3 c)
  · exact (Cert.Lib.RowForms.rowBroadcast_apply _ broadcasts_S1x4096_S256x4096 c k).trans (pixRow_apply x0 x4 k)

end Read

end Cert.ReferenceIdeal.RefValue

end
-- ==== Proof.RefBlocks.lean ====
/-
  From the blocks the region writes back to the whole result array.

  The region runs 16 points; point `t` is handed feature map `t` of the [16, 256, 4096] array as a [1, 256, 4096]
  block, and the four weight arrays whole, and writes its [1, 256, 4096] result as block `t` of the result array.
  Entry `(0, c, k)` of a block at point `t` is entry `(t, c, k)` of its array; an entry of a weight array's block is
  the same entry of the array. So what point `t` writes back is block `t` of ONE function of the arrays as the region
  finds them — at `(b, c, k)` the specification's value for map `b` at channel `c`, pixel `k` — and since the 16 blocks
  cover the array, that function is what the array holds after the run.
-/
import proofs.«139465_g2000002610237072_pallasbulk_71_16_alg».proof.Proof.Gen.ReferenceIdeal.Frame
import proofs.«139465_g2000002610237072_pallasbulk_71_16_alg».proof.Proof.RefPay
import Idealize.ShloMosaic.Lib.Pipeline.Value

set_option maxRecDepth 16384

noncomputable section

open scoped BigOperators

namespace Cert.ReferenceIdeal.RefValue

open Idealize.ShloMosaic Idealize.ShloMosaic.ValueIdx Idealize.ShloMosaic.TcCoe
open Idealize.SL Idealize.SL.Sem
open Idealize.ShloMosaic.Pipeline (Dat Cfg Window)
open Cert.ReferenceIdeal Cert.ReferenceIdeal.Gen

/-! ## The result as one function of the arrays the region reads -/

/-- The specification's value for map `b` at channel `c`, pixel `k`, from the [16, 256, 4096] batch `A0`, the compressing
    weight `A1`, the exciting weight `A2`, the two biases side by side `A3` and the pixel weight's row `A4`. -/
def regionAt (A0 : S16x256x4096.Idx → EReal) (A1 : S16x256.Idx → EReal) (A2 : S256x16.Idx → EReal)
    (A3 : S256x2.Idx → EReal) (A4 : S1x256.Idx → EReal) (b : Fin 16) (c : Fin 256) (k : Fin 4096) : EReal :=
  Cert.ScSE.core (fun c k => A0 (ix3 b c k)) (fun r c => A1 (ix2 r c)) (fun r => A3 (ix2 (wide r) (0 : Fin 2)))
    (fun c r => A2 (ix2 c r)) (fun c => A3 (ix2 c (1 : Fin 2))) (fun c => A4 (ix2 (0 : Fin 1) c)) c k

/-- The same as an array. -/
def regionOut (A0 : S16x256x4096.Idx → EReal) (A1 : S16x256.Idx → EReal) (A2 : S256x16.Idx → EReal)
    (A3 : S256x2.Idx → EReal) (A4 : S1x256.Idx → EReal) : S16x256x4096.Idx → EReal :=
  fun i => regionAt A0 A1 A2 A3 A4 (i 0) (i 1) (i 2)

theorem regionOut_apply (A0 : S16x256x4096.Idx → EReal) (A1 : S16x256.Idx → EReal) (A2 : S256x16.Idx → EReal)
    (A3 : S256x2.Idx → EReal) (A4 : S1x256.Idx → EReal) (b : Fin 16) (c : Fin 256) (k : Fin 4096) :
    regionOut A0 A1 A2 A3 A4 (ix3 b c k) = regionAt A0 A1 A2 A3 A4 b c k := rfl

/-! ## What the body leaves is its arithmetic on the blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The body loads each block whole and stores its result whole: the result buffer holds the body's arithmetic on
    the five blocks. -/
theorem out_eq (x0 : Vec Ideal S1x256x4096 .f32) (x1 : Vec Ideal S16x256 .f32) (x2 : Vec Ideal S256x16 .f32)
    (x3 : Vec Ideal S256x2 .f32) (x4 : Vec Ideal S1x256 .f32) :
    out0_5 x0 x1 x2 x3 x4 = k0_pay1 x0 x1 x2 x3 x4 := by
  unfold out0_5
  rw [View.canon_unit_zero hz3]
  simp only [View.ld_unit_zero (S := S1x256x4096) hz3, View.ld_unit_zero (S := S16x256) hz2,
    View.ld_unit_zero (S := S256x16) hz2, View.ld_unit_zero (S := S256x2) hz2, View.ld_unit_zero (S := S1x256) hz2]

/-! ## Where each block sits in its array -/

/-- The printed index maps, decided over the 16 points: the map's window and the result's window are at block `t` along
    the batch axis and at block 0 along the others; the four weight windows are at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The map a point works on. -/
def bat (t : Fin cfg0.N) : Fin 16 := ⟨t.val, (show t.val < grid0.N from t.isLt).trans_eq N_0⟩

variable (m : (ℓ : Loc nD τ sig) → Buf (Elt Ideal) ℓ)

/-- Entry `(0, ch, k)` of the map block at point `t` is entry `(t, ch, k)` of the batch. -/
theorem emb_map (t : Fin cfg0.N) (ch : Fin 256) (k : Fin 4096) :
    ((cfg0.win 0).blk t).view.emb (ix3 (0 : Fin 1) ch k) = ix3 (bat t) ch k := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 4096 + 1 * k.val = k.val; omega

/-- Entry `(0, ch, k)` of the result block at point `t` is entry `(t, ch, k)` of the result array. -/
theorem emb_out (t : Fin cfg0.N) (ch : Fin 256) (k : Fin 4096) :
    ((cfg0.win 5).blk t).view.emb (ix3 (0 : Fin 1) ch k) = ix3 (bat t) ch k := by
  obtain ⟨-, -, -, -, -, -, -, -, -, -, -, e0, e1, e2⟩ := idx_facts t
  funext a; apply Fin.ext
  match a with
  | ⟨0, _⟩ => show win0_5.index t (0 : Fin 3) * 1 + 1 * 0 = t.val; omega
  | ⟨1, _⟩ => show win0_5.index t (1 : Fin 3) * 256 + 1 * ch.val = ch.val; omega
  | ⟨2, _⟩ => show win0_5.index t (2 : Fin 3) * 4096 + 1 * k.val = k.val; omega

/-- The weight windows' blocks are the arrays themselves. -/
theorem emb_wc (t : Fin cfg0.N) (r : Fin 16) (ch : Fin 256) : ((cfg0.win 1).blk t).view.emb (ix2 r ch) = ix2 r ch := by
  obtain ⟨-, -, -, e0, e1, -⟩ := idx_facts t
  funext a; apply Fin.ext
  match a with
  | ⟨0, _⟩ => show win0_1.index t (0 : Fin 2) * 16 + 1 * r.val = r.val; omega
  | ⟨1, _⟩ => show win0_1.index t (1 : Fin 2) * 256 + 1 * ch.val = ch.val; omega
theorem emb_we (t : Fin cfg0.N) (ch : Fin 256) (r : Fin 16) : ((cfg0.win 2).blk t).view.emb (ix2 ch r) = ix2 ch r := by
  obtain ⟨-, -, -, -, -, e0, e1, -⟩ := idx_facts t
  funext a; apply Fin.ext
  match a with
  | ⟨0, _⟩ => show win0_2.index t (0 : Fin 2) * 256 + 1 * ch.val = ch.val; omega
  | ⟨1, _⟩ => show win0_2.index t (1 : Fin 2) * 16 + 1 * r.val = r.val; omega
theorem emb_bias (t : Fin cfg0.N) (ch : Fin 256) (q : Fin 2) : ((cfg0.win 3).blk t).view.emb (ix2 ch q) = ix2 ch q := by
  obtain ⟨-, -, -, -, -, -, -, e0, e1, -⟩ := idx_facts t
  funext a; apply Fin.ext
  match a with
  | ⟨0, _⟩ => show win0_3.index t (0 : Fin 2) * 256 + 1 * ch.val = ch.val; omega
  | ⟨1, _⟩ => show win0_3.index t (1 : Fin 2) * 2 + 1 * q.val = q.val; omega
theorem emb_ws (t : Fin cfg0.N) (ch : Fin 256) : ((cfg0.win 4).blk t).view.emb (ix2 (0 : Fin 1) ch) = ix2 (0 : Fin 1) ch := by
  obtain ⟨-, -, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 256 + 1 * ch.val = ch.val; omega

/-! ## What a point writes back -/

/-- WHAT POINT `t` WRITES BACK is block `t` of `regionOut` of the arrays as the region finds them. -/
theorem flushed_eq (c : Dev nD) (t : Fin cfg0.N) :
    (dats m 0 c).flushed 5 t = ((cfg0.win 5).blk t).view.read (Elt Ideal)
      (regionOut (V m c main_v0) (V m c main_arg1) (V m c main_arg3) (V m c main_v6) (V m c main_v7)) := by
  show (cfg0.win 5).cut (grid0.coords t) ((dats m 0 c).after 5 t) = _
  rw [after0_5]
  funext j
  obtain ⟨z, ch, k, rfl⟩ : ∃ (z : Fin 1) (ch : Fin 256) (k : Fin 4096), j = ix3 z ch k := ⟨j 0, j 1, j 2, eq_ix3 j⟩
  obtain rfl : z = 0 := Subsingleton.elim _ _
  show out0_5 (iblk m c 0 t) (iblk m c 1 t) (iblk m c 2 t) (iblk m c 3 t) (iblk m c 4 t) (ix3 (0 : Fin 1) ch k)
    = regionOut (V m c main_v0) (V m c main_arg1) (V m c main_arg3) (V m c main_v6) (V m c main_v7)
        (((cfg0.win 5).blk t).view.emb (ix3 (0 : Fin 1) ch k))
  refine (congrFun (out_eq (iblk m c 0 t) (iblk m c 1 t) (iblk m c 2 t) (iblk m c 3 t) (iblk m c 4 t)) _).trans ?_
  refine (pay_apply (iblk m c 0 t) (iblk m c 1 t) (iblk m c 2 t) (iblk m c 3 t) (iblk m c 4 t) ch k).trans ?_
  rw [emb_out, regionOut_apply]
  unfold regionAt
  have h0 : (fun (c' : Fin 256) (k' : Fin 4096) => iblk m c 0 t (ix3 (0 : Fin 1) c' k'))
      = fun c' k' => V m c main_v0 (ix3 (bat t) c' k') :=
    funext fun c' => funext fun k' => congrArg (V m c main_v0) (emb_map t c' k')
  have h1 : (fun (r : Fin 16) (c' : Fin 256) => iblk m c 1 t (ix2 r c')) = fun r c' => V m c main_arg1 (ix2 r c') :=
    funext fun r => funext fun c' => congrArg (V m c main_arg1) (emb_wc t r c')
  have h2 : (fun (c' : Fin 256) (r : Fin 16) => iblk m c 2 t (ix2 c' r)) = fun c' r => V m c main_arg3 (ix2 c' r) :=
    funext fun c' => funext fun r => congrArg (V m c main_arg3) (emb_we t c' r)
  have h3 : (fun (r : Fin 16) => iblk m c 3 t (ix2 (wide r) (0 : Fin 2))) = fun r => V m c main_v6 (ix2 (wide r) (0 : Fin 2)) :=
    funext fun r => congrArg (V m c main_v6) (emb_bias t (wide r) 0)
  have h3' : (fun (c' : Fin 256) => iblk m c 3 t (ix2 c' (1 : Fin 2))) = fun c' => V m c main_v6 (ix2 c' (1 : Fin 2)) :=
    funext fun c' => congrArg (V m c main_v6) (emb_bias t c' 1)
  have h4 : (fun (c' : Fin 256) => iblk m c 4 t (ix2 (0 : Fin 1) c')) = fun c' => V m c main_v7 (ix2 (0 : Fin 1) c') :=
    funext fun c' => congrArg (V m c main_v7) (emb_ws t c')
  show Cert.ScSE.core (fun c' k' => iblk m c 0 t (ix3 (0 : Fin 1) c' k')) (fun r c' => iblk m c 1 t (ix2 r c'))
      (fun r => iblk m c 3 t (ix2 (wide r) (0 : Fin 2))) (fun c' r => iblk m c 2 t (ix2 c' r))
      (fun c' => iblk m c 3 t (ix2 c' (1 : Fin 2))) (fun c' => iblk m c 4 t (ix2 (0 : Fin 1) c')) ch k = _
  rw [h0, h1, h2, h3, h3', h4]

/-! ## The blocks cover the array -/

/-- An index of the result array is in point `t`'s block iff each coordinate is in the block's range on its axis. -/
theorem mem_blk (t : Fin cfg0.N) (i : S16x256x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v8).slice (win0_5.rect t)).set ↔ _
  rw [View.set_slice_whole, Rect.mem_set_unit]
  exact Iff.rfl

/-- Every index of the result array lies in the block of the point that works on its map. -/
theorem cover (i : S16x256x4096.Idx) :
    ∃ t : Fin cfg0.N, (cfg0.win 5).flush t = true ∧ i ∈ ((cfg0.win 5).blk t).view.set := by
  have h16 : cfg0.N = 16 := N_0
  have hi0 : (i 0).val < 16 := (i 0).isLt
  have hi1 : (i 1).val < 256 := (i 1).isLt
  have hi2 : (i 2).val < 4096 := (i 2).isLt
  let t : Fin cfg0.N := ⟨(i 0).val, by omega⟩
  obtain ⟨-, -, -, -, -, -, -, -, -, -, -, e0, e1, e2⟩ := idx_facts t
  have ht : t.val = (i 0).val := rfl
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- THE RESULT ARRAY after the region: `regionOut` of the arrays as the region finds them. -/
theorem final (c : Dev nD) : (dats m 0 c).arrAt 5 cfg0.N
    = regionOut (V m c main_v0) (V m c main_arg1) (V m c main_arg3) (V m c main_v6) (V m c main_v7) :=
  (dats m 0 c).arrAt_eq_of_cover 5 _ (fun t _ => flushed_eq m c t) cover

end Cert.ReferenceIdeal.RefValue

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.LibScatterSet.lean ====
/-
  A scatter that overwrites, read at an entry.

  The host's scatter visits the updates in row-major order; with a body that returns the update, update number `n`
  replaces the operand's entry at the index it lands on. When update `n` lands on `g n` for every `n`, and `g` sends
  different updates to different entries, the result holds update `n₀` at `g n₀`, and the operand's own entry
  wherever no update lands: a list of point writes to distinct places can be read in any order.
-/
import Idealize.ShloMosaic.PureOps.ShapeOps

noncomputable section

namespace Cert.Lib.ScatterSet

open Idealize.ShloMosaic

/-- Point writes to places other than `i` leave the entry at `i` alone. -/
theorem foldSet_not_mem {ι κ α : Type} [DecidableEq ι] (g : κ → ι) (v : κ → α) :
    ∀ (L : List κ) (y : ι → α) (i : ι), (∀ n ∈ L, g n ≠ i) →
      L.foldl (fun r n => fun i' => if i' = g n then v n else r i') y i = y i
  | [], _, _, _ => rfl
  | a :: L, y, i, h => by
      rw [List.foldl_cons, foldSet_not_mem g v L _ i (fun n hn => h n (List.mem_cons_of_mem _ hn))]
      exact if_neg (fun e => h a (List.mem_cons.2 (Or.inl rfl)) e.symm)

/-- After point writes to pairwise distinct places, the place of write `n₀` holds its value. -/
theorem foldSet_mem {ι κ α : Type} [DecidableEq ι] (g : κ → ι) (hg : Function.Injective g) (v : κ → α) :
    ∀ (L : List κ) (y : ι → α) (n₀ : κ), n₀ ∈ L → L.Nodup →
      L.foldl (fun r n => fun i' => if i' = g n then v n else r i') y (g n₀) = v n₀
  | [], _, _, h, _ => absurd h (by simp)
  | a :: L, y, n₀, h, hnd => by
      rw [List.foldl_cons]
      rcases List.mem_cons.1 h with e | h'
      · subst e
        rw [foldSet_not_mem g v L _ (g n₀) (fun n hn e => (List.nodup_cons.1 hnd).1 (hg e ▸ hn))]
        exact if_pos rfl
      · exact foldSet_mem g hg v L _ n₀ h' (List.nodup_cons.1 hnd).2

variable {s si u : Shape} {w : Nat} {α : Type}

/-- An overwriting scatter whose update `n` lands on `g n`, `g` injective: at `g n₀` the result is update `n₀`. -/
theorem scatter_set_apply (d : ScatterDims s si u) (x : s.Idx → α) (idx : IVec si w) (upd : u.Idx → α)
    (g : Fin u.numel → s.Idx) (hg : Function.Injective g)
    (hres : ∀ n, d.resultIdx? (u.rowMajor.symm n) idx = some (g n)) (n₀ : Fin u.numel) :
    Host.scatter d (fun _ b => b) x idx upd (g n₀) = upd (u.rowMajor.symm n₀) := by
  unfold Host.scatter
  refine Eq.trans (congrFun (congrArg (fun F => List.foldl F x (List.finRange u.numel)) ?_) (g n₀))
    (foldSet_mem g hg (fun n => upd (u.rowMajor.symm n)) (List.finRange _) x n₀ (List.mem_finRange _) (List.nodup_finRange _))
  funext r n
  rw [hres n]

end Cert.Lib.ScatterSet

end
-- ==== Proof.RefHost.lean ====
/-
  The reference's host operations around the region, read at an entry.

  Before the region the host merges rows and columns of each map into one pixel axis: entry (b, c, k) of the staged batch
  is entry (b, c, k / 64, k % 64) of the argument. It packs the two biases as the columns of one [256, 2] array: column 0
  is the compress bias written over the first 16 entries of a zero vector of length 256 (a scatter at index 0 whose body
  returns the update), column 1 the excite bias; so entry (r, 0) for r < 16 is the compress bias at r, and entry (c, 1)
  is the excite bias at c. It views the pixel weight as a [1, 256] row. After the region it splits the pixel axis again:
  entry (b, c, h, w) of the result is entry (b, c, 64 h + w) of the region's output.
-/
import proofs.«139465_g2000002610237072_pallasbulk_71_16_alg».proof.Proof.Gen.ReferenceIdeal.Frame
import proofs.«139465_g2000002610237072_pallasbulk_71_16_alg».proof.Proof.Spec
import proofs.«139465_g2000002610237072_pallasbulk_71_16_alg».proof.Proof.RefPay
import proofs.«139465_g2000002610237072_pallasbulk_71_16_alg».proof.Proof.LibReshape
import proofs.«139465_g2000002610237072_pallasbulk_71_16_alg».proof.Proof.LibLeadAxes
import proofs.«139465_g2000002610237072_pallasbulk_71_16_alg».proof.Proof.LibRowForms
import proofs.«139465_g2000002610237072_pallasbulk_71_16_alg».proof.Proof.LibConcatRead
import proofs.«139465_g2000002610237072_pallasbulk_71_16_alg».proof.Proof.LibScatterSet
import Idealize.ShloMosaic.Lib.StableHlo.Run
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ScSE Idealize.ShloMosaic.StableHlo

variable (m : (ℓ : Loc nD τ sig) → Buf (Elt Ideal) ℓ)

/-- The staged batch is the argument with its two map axes merged. -/
theorem V_v0 (c : Dev nD) : (V m c main_v0 : S16x256x4096.Idx → EReal)
    = shapeCast S16x256x4096 (m ((c : Thread nD τ).loc main_arg0)) shapeCasts_S16x256x64x64_S16x256x4096 := by
  show StableHlo.after hostOps0 (fun b => m (c, b)) (Proc.devRef .tc main_v0) = _
  after_results
  try rfl

/-- The staged pixel weight is the argument viewed as a row. -/
theorem V_v7 (c : Dev nD) : (V m c main_v7 : S1x256.Idx → EReal)
    = shapeCast S1x256 (m ((c : Thread nD τ).loc main_arg5)) shapeCasts_S256_S1x256 := by
  show StableHlo.after hostOps0 (fun b => m (c, b)) (Proc.devRef .tc main_v7) = _
  after_results
  try rfl

/-- The compress bias written over the head of a zero vector of length 256. -/
def padded (bc : S16.Idx → EReal) : S256.Idx → EReal :=
  Host.scatter scatter_S256_S1_S16_0_n_0_0 (fun _ b => b)
    (broadcastInDim S256 ![] bcast_S_S256 (constant (F := Ideal) S_ .f32 0x00000000#32))
    (broadcastInDim S1 ![] bcast_S_S1 (constantI S_ 32 0#32)) bc

/-- The staged biases: the padded compress bias and the excite bias, each as a column, side by side. -/
theorem V_v6 (c : Dev nD) : (V m c main_v6 : S256x2.Idx → EReal)
    = concatenate S256x2 1
        [⟨S256x1, broadcastInDim S256x1 ![0] bcast_S256_S256x1_0 (padded (m ((c : Thread nD τ).loc main_arg2)))⟩,
          ⟨S256x1, broadcastInDim S256x1 ![0] bcast_S256_S256x1_0 (m ((c : Thread nD τ).loc main_arg4))⟩]
        concatenates_S256x1_S256x1_S256x2_d1 := by
  show StableHlo.after hostOps0 (fun b => m (c, b)) (Proc.devRef .tc main_v6) = _
  after_results
  try rfl

/-- Entry (b, c, k) of the staged batch. -/
theorem V_v0_apply (c : Dev nD) (b : Fin 16) (ch : Fin 256) (k : Fin 4096) :
    (V m c main_v0 : S16x256x4096.Idx → EReal) (ix3 b ch k) = m ((c : Thread nD τ).loc main_arg0) (ix4 b ch (hi k) (lo k)) := by
  refine (congrFun (V_v0 m c) (ix3 b ch k)).trans ?_
  refine Cert.Lib.Reshape.four_three_apply _ shapeCasts_S16x256x64x64_S16x256x4096 b ch k b ch (hi k) (lo k) ?_
  show ((b.val * 256 + ch.val) * 64 + k.val / 64) * 64 + k.val % 64 = (b.val * 256 + ch.val) * 4096 + k.val
  omega

/-- Entry (0, c) of the staged pixel weight. -/
theorem V_v7_apply (c : Dev nD) (ch : Fin 256) :
    (V m c main_v7 : S1x256.Idx → EReal) (ix2 (0 : Fin 1) ch) = m ((c : Thread nD τ).loc main_arg5) (ix1 ch) := by
  refine (congrFun (V_v7 m c) (ix2 (0 : Fin 1) ch)).trans ?_
  exact Cert.Lib.RowForms.vecRow_apply (M := 256) _ shapeCasts_S256_S1x256 ch

/-- A vector of length 256 set up as a column: entry (c, 0) is entry c. -/
theorem column_apply (v : S256.Idx → EReal) (ch : Fin 256) :
    broadcastInDim S256x1 ![0] bcast_S256_S256x1_0 v (ix2 ch (0 : Fin 1)) = v (ix1 ch) :=
  broadcastInDim_apply ![0] bcast_S256_S256x1_0 v (ix2 ch (0 : Fin 1)) (ix1 ch) (fun a => by
    match a with
    | ⟨0, _⟩ =>
      show ch.val = if (256 : ℕ) = 1 then 0 else ch.val
      rw [if_neg (by decide)])

/-- Entry (c, 1) of the staged biases is the excite bias at c. -/
theorem V_v6_be (c : Dev nD) (ch : Fin 256) :
    (V m c main_v6 : S256x2.Idx → EReal) (ix2 ch (1 : Fin 2)) = m ((c : Thread nD τ).loc main_arg4) (ix1 ch) := by
  refine (congrFun (V_v6 m c) (ix2 ch (1 : Fin 2))).trans ?_
  refine (Cert.Lib.ConcatRead.cols_right (a := 256) (b₁ := 1) (b₂ := 1) (n := 2) _ _ concatenates_S256x1_S256x1_S256x2_d1 ch (1 : Fin 2) (0 : Fin 1) rfl).trans ?_
  exact column_apply _ ch

/-- Update number n of the scatter lands on entry n of the padded vector. -/
def landing (n : Fin S16.numel) : S256.Idx := ix1 ⟨n.val, by have := n.isLt; have h16 : S16.numel = 16 := (by decide); omega⟩

theorem landing_inj : Function.Injective landing := fun a b h => by
  have := congrArg (fun i : S256.Idx => (i 0).val) h
  exact Fin.ext this

theorem lands (n : Fin S16.numel) :
    scatter_S256_S1_S16_0_n_0_0.resultIdx? (S16.rowMajor.symm n) (broadcastInDim S1 ![] bcast_S_S1 (constantI S_ 32 0#32)) = some (landing n) := by
  have hj : ((S16.rowMajor.symm n) 0).val = n.val := by
    have h := Shape.rowMajor_val_one (S16.rowMajor.symm n)
    rw [Equiv.apply_symm_apply] at h
    exact h.symm
  have hstart : ∀ a, scatter_S256_S1_S16_0_n_0_0.start (S16.rowMajor.symm n) (broadcastInDim S1 ![] bcast_S_S1 (constantI S_ 32 0#32)) a = 0 :=
    fun a => by
      unfold ScatterDims.start
      split
      · show (0#32 : BitVec 32).toInt = 0
        decide
      · rfl
  have hwin : ∀ a, scatter_S256_S1_S16_0_n_0_0.window (S16.rowMajor.symm n) a = n.val := fun a => by
    unfold ScatterDims.window
    split
    · rw [← hj]
      exact congrArg (fun x => ((S16.rowMajor.symm n) x).val) (Subsingleton.elim _ _)
    · next ha =>
      have ha0 : a = (⟨0, by decide⟩ : Fin S256.rank) := Fin.ext (by have h := a.isLt; change a.val < 1 at h; show a.val = 0; omega)
      exact absurd (ha0 ▸ (by decide : (⟨0, by decide⟩ : Fin S256.rank) ∈ scatter_S256_S1_S16_0_n_0_0.sKept)) ha
  have hn : n.val < 16 := by have := n.isLt; have h16 : S16.numel = 16 := (by decide); omega
  have hall : ∀ a : Fin S256.rank,
      0 ≤ scatter_S256_S1_S16_0_n_0_0.start (S16.rowMajor.symm n) (broadcastInDim S1 ![] bcast_S_S1 (constantI S_ 32 0#32)) a
            + ↑(scatter_S256_S1_S16_0_n_0_0.window (S16.rowMajor.symm n) a)
        ∧ scatter_S256_S1_S16_0_n_0_0.start (S16.rowMajor.symm n) (broadcastInDim S1 ![] bcast_S_S1 (constantI S_ 32 0#32)) a
            + ↑(scatter_S256_S1_S16_0_n_0_0.window (S16.rowMajor.symm n) a) < ((S256.size a : ℕ) : Int) := fun a => by
    rw [hstart, hwin]
    match a with
    | ⟨0, _⟩ =>
      show (0 : Int) ≤ 0 + (n.val : Int) ∧ (0 : Int) + (n.val : Int) < ((256 : ℕ) : Int)
      omega
  unfold ScatterDims.resultIdx?
  split
  · refine congrArg some (funext fun a => Fin.ext ?_)
    match a with
    | ⟨0, _⟩ =>
      show (scatter_S256_S1_S16_0_n_0_0.start (S16.rowMajor.symm n) (broadcastInDim S1 ![] bcast_S_S1 (constantI S_ 32 0#32)) ⟨0, _⟩
        + ↑(scatter_S256_S1_S16_0_n_0_0.window (S16.rowMajor.symm n) ⟨0, _⟩)).toNat = n.val
      rw [hstart, hwin]
      omega
  · next h => exact absurd hall h

/-- Entry r < 16 of the padded vector is the compress bias at r. -/
theorem padded_apply (bc : S16.Idx → EReal) (r : Fin 16) : padded bc (ix1 (wide r)) = bc (ix1 r) := by
  have h16 : S16.numel = 16 := by decide
  let n₀ : Fin S16.numel := ⟨r.val, by have := r.isLt; omega⟩
  have hsym : S16.rowMajor.symm n₀ = ix1 r := (Equiv.symm_apply_eq _).2 (Fin.ext (by rw [Shape.rowMajor_val_one]))
  unfold padded
  refine (Cert.Lib.ScatterSet.scatter_set_apply scatter_S256_S1_S16_0_n_0_0 _ _ bc landing landing_inj lands n₀).trans ?_
  rw [hsym]

/-- Entry (r, 0) of the staged biases, r < 16, is the compress bias at r. -/
theorem V_v6_bc (c : Dev nD) (r : Fin 16) :
    (V m c main_v6 : S256x2.Idx → EReal) (ix2 (wide r) (0 : Fin 2)) = m ((c : Thread nD τ).loc main_arg2) (ix1 r) := by
  refine (congrFun (V_v6 m c) (ix2 (wide r) (0 : Fin 2))).trans ?_
  refine (Cert.Lib.ConcatRead.cols_left (a := 256) (b₁ := 1) (b₂ := 1) (n := 2) _ _ concatenates_S256x1_S256x1_S256x2_d1 (wide r) (0 : Fin 2) (0 : Fin 1) rfl).trans ?_
  refine (column_apply _ (wide r)).trans ?_
  exact padded_apply _ r

/-- The host operation after the region, as a function of the region's output. -/
def tail (o : S16x256x4096.Idx → EReal) : S16x256x64x64.Idx → EReal :=
  shapeCast S16x256x64x64 o shapeCasts_S16x256x4096_S16x256x64x64

/-- Entry (b, c, h, w) of the result is entry (b, c, 64 h + w) of the region's output. -/
theorem tail_apply (o : S16x256x4096.Idx → EReal) (b : Fin 16) (ch : Fin 256) (h w : Fin 64) :
    tail o (ix4 b ch h w) = o (ix3 b ch (pix h w)) := by
  unfold tail
  refine Cert.Lib.LeadAxes.three_four_apply o shapeCasts_S16x256x4096_S16x256x64x64 b ch h w b ch (pix h w) ?_
  show (b.val * 256 + ch.val) * 4096 + (h.val * 64 + w.val) = ((b.val * 256 + ch.val) * 64 + h.val) * 64 + w.val
  omega

end Cert.ReferenceIdeal.RefValue

end
-- ==== Proof.RefRun.lean ====
/-
  The reference's run, read: the result array is the specification of the arguments.

  The host operations before the region re-read the batch [16, 256, 64, 64] as [16, 256, 4096] (pixel `k` of a map is
  row `k / 64`, column `k % 64`), place the compressing bias in the first 16 rows of a column beside the column of
  the exciting bias, and re-read the pixel weight as a row; the region leaves its result array at one function of
  those arrays (the 16 blocks cover it); the host operation after the region re-reads the result as
  [16, 256, 64, 64]. Entry `(b, c, h, w)` of the result is therefore the specification's value for map `b` of the
  argument batch at channel `c`, pixel `64 h + w`, with the argument weights.
-/
import proofs.«139465_g2000002610237072_pallasbulk_71_16_alg».proof.Proof.RefBlocks
import proofs.«139465_g2000002610237072_pallasbulk_71_16_alg».proof.Proof.RefHost

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ScSE Idealize.ShloMosaic.StableHlo
open Idealize.ShloMosaic.Pipeline (Dat)

variable (m : (ℓ : Loc nD τ sig) → Buf (Elt Ideal) ℓ) (ρ : Dev nD → PrngReg)

/-- The result buffer after the host operation that follows the region: the region's result array, re-read at rank
    four. -/
theorem tail_result (c : Dev nD) :
    (Pipeline.afterTail₀ cfgs (dats m) 0 (V0 m) [hostOps1] c main_v9 : S16x256x64x64.Idx → EReal)
      = tail ((dats m 0 c).arrAt 5 cfg0.N) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = (dats m 0 c).arrAt 5 cfg0.N :=
    Pipeline.withArrays_arr spec0 launch0.win.arr_inj c (V0 m c) (fun w => (dats m 0 c).arrAt w cfg0.N) 5
  rw [hw]
  rfl

/-- The result array is the specification of the argument arrays. -/
theorem result_eq (c : Dev nD) :
    (Pipeline.afterTail₀ cfgs (dats m) 0 (V0 m) [hostOps1] c main_v9 : S16x256x64x64.Idx → EReal)
      = scse (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_result, final]
  funext i
  obtain ⟨b, ch, h, w, rfl⟩ : ∃ (b : Fin 16) (ch : Fin 256) (h w : Fin 64), i = ix4 b ch h w := ⟨i 0, i 1, i 2, i 3, eq_ix4 i⟩
  rw [tail_apply, regionOut_apply]
  unfold regionAt scse
  have h0 : (fun (c' : Fin 256) (k' : Fin 4096) => (V m c main_v0 : S16x256x4096.Idx → EReal) (ix3 b c' k'))
      = fun c' k' => m ((c : Thread nD τ).loc main_arg0) (ix4 b c' (hi k') (lo k')) :=
    funext fun c' => funext fun k' => V_v0_apply m c b c' k'
  have hbc : (fun (r : Fin 16) => (V m c main_v6 : S256x2.Idx → EReal) (ix2 (wide r) (0 : Fin 2)))
      = fun r => m ((c : Thread nD τ).loc main_arg2) (ix1 r) :=
    funext fun r => V_v6_bc m c r
  have hbe : (fun (c' : Fin 256) => (V m c main_v6 : S256x2.Idx → EReal) (ix2 c' (1 : Fin 2)))
      = fun c' => m ((c : Thread nD τ).loc main_arg4) (ix1 c') :=
    funext fun c' => V_v6_be m c c'
  have hws : (fun (c' : Fin 256) => (V m c main_v7 : S1x256.Idx → EReal) (ix2 (0 : Fin 1) c'))
      = fun c' => m ((c : Thread nD τ).loc main_arg5) (ix1 c') :=
    funext fun c' => V_v7_apply m c c'
  show core (fun c' k' => (V m c main_v0 : S16x256x4096.Idx → EReal) (ix3 b c' k')) (fun r c' => V m c main_arg1 (ix2 r c'))
      (fun r => (V m c main_v6 : S256x2.Idx → EReal) (ix2 (wide r) (0 : Fin 2))) (fun c' r => V m c main_arg3 (ix2 c' r))
      (fun c' => (V m c main_v6 : S256x2.Idx → EReal) (ix2 c' (1 : Fin 2)))
      (fun c' => (V m c main_v7 : S1x256.Idx → EReal) (ix2 (0 : Fin 1) c')) ch (pix h w) = _
  rw [h0, hbc, hbe, hws, V_main_arg1, V_main_arg3]

/-- THE RUN: every weakly fair execution of the idealized reference terminates with the result array at the
    specification of the arguments and the arguments unchanged. -/
theorem run : θ_run (Cert.ReferenceIdeal.defs (F := Ideal)) (onTc (τ := τ) (Cert.ReferenceIdeal.main (F := Ideal))) ⟨m, fun _ => 0, ρ⟩
    (fun r => ∀ c : Dev nD,
      r.2.mem ((c.tc : Thread nD τ).loc main_v9)
        = scse (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v9 (Pipeline.mem_restRefs_of main_v9 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.ReferenceIdeal.RefValue

end
-- ==== Proof.lean ====
/-
  The certificate: an optimized channel-and-spatial squeeze-and-excite kernel against its reference.

  Both programs compute, for a batch of 16 feature maps of 256 channels by 64 × 64 pixels,
      out = x · (σ (We · max (Wc · mean x + bc) 0 + be) + σ (ws · x)),
  the first gate per channel, the second per pixel. The kernel keeps the channels along the lanes and handles two maps
  per grid point; the reference keeps the pixels along the lanes and handles one map per grid point, with its two biases
  packed as the columns of one array. On the extended reals both results are the same function `Cert.ScSE.scse` of the
  arguments, entry by entry: the sums run over the same index sets in both programs, and the two programs' matrix
  products differ only in the order of the two factors of each term.

  The three frames are the generated ones. The kernel's idealization rewrote nothing, so it is preserved trivially. The
  value claim sets the two runs side by side, each with its result array at `scse` of its own arguments, and rewrites the
  reference's arguments to the kernel's.
-/
import proofs.«139465_g2000002610237072_pallasbulk_71_16_alg».proof.Defs
import proofs.«139465_g2000002610237072_pallasbulk_71_16_alg».proof.Proof.Gen.Kernel
import proofs.«139465_g2000002610237072_pallasbulk_71_16_alg».proof.Proof.Gen.Kernel.Skeleton
import proofs.«139465_g2000002610237072_pallasbulk_71_16_alg».proof.Proof.Gen.Kernel.Launch
import proofs.«139465_g2000002610237072_pallasbulk_71_16_alg».proof.Proof.Gen.Kernel.Points
import proofs.«139465_g2000002610237072_pallasbulk_71_16_alg».proof.Proof.Gen.Kernel.Frame
import proofs.«139465_g2000002610237072_pallasbulk_71_16_alg».proof.Proof.Gen.KernelIdeal
import proofs.«139465_g2000002610237072_pallasbulk_71_16_alg».proof.Proof.Gen.KernelIdeal.Skeleton
import proofs.«139465_g2000002610237072_pallasbulk_71_16_alg».proof.Proof.Gen.KernelIdeal.Launch
import proofs.«139465_g2000002610237072_pallasbulk_71_16_alg».proof.Proof.Gen.KernelIdeal.Points
import proofs.«139465_g2000002610237072_pallasbulk_71_16_alg».proof.Proof.Gen.KernelIdeal.Frame
import proofs.«139465_g2000002610237072_pallasbulk_71_16_alg».proof.Proof.Gen.ReferenceIdeal
import proofs.«139465_g2000002610237072_pallasbulk_71_16_alg».proof.Proof.Gen.ReferenceIdeal.Skeleton
import proofs.«139465_g2000002610237072_pallasbulk_71_16_alg».proof.Proof.Gen.ReferenceIdeal.Launch
import proofs.«139465_g2000002610237072_pallasbulk_71_16_alg».proof.Proof.Gen.ReferenceIdeal.Points
import proofs.«139465_g2000002610237072_pallasbulk_71_16_alg».proof.Proof.Gen.ReferenceIdeal.Frame
import proofs.«139465_g2000002610237072_pallasbulk_71_16_alg».proof.Proof.Gen.Pre_finite_inputs
import proofs.«139465_g2000002610237072_pallasbulk_71_16_alg».proof.Proof.KRun
import proofs.«139465_g2000002610237072_pallasbulk_71_16_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation: there is nothing to preserve. -/
theorem preserves : Cert.preserves_Kernel_KernelIdeal := trivial

/-- Both idealized programs end with their result array at the specification of their arguments; the arguments agree. -/
theorem algebraic : Cert.algebraic_KernelIdeal_ReferenceIdeal := by
  intro m ρ m' ρ' _ hagree
  refine ⟨_, Cert.KernelIdeal.KValue.run m ρ, ?_⟩
  refine (θ_run (Cert.ReferenceIdeal.defs (F := Ideal)) _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
